-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128x128 .f32) (main_arg9 : FVec F S128x128 .f32) (main_arg10 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg9
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128x128 .f32) (main_arg7 : FVec F S128 .f32) (main_arg8 : FVec F S128x128 .f32) (main_arg9 : FVec F S128x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_v33

def fn {F : FTy → Type} [FloatOps F] (main_arg0 : FVec F S50000x128 .f32) (main_arg1 : IVec S2x800000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S5000x128 : Shape := ⟨2, ![5000, 128]⟩
abbrev S5000x1 : Shape := ⟨2, ![5000, 1]⟩

abbrev nBuf : Space → Nat
  | .hbm => 76
  | .vmem => 33
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000x1, .f32⟩
  | .hbm, ⟨25, _⟩ => ⟨S50000x128, .bf16⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .bf16⟩
  | .hbm, ⟨35, _⟩ => ⟨S800000x128, .f32⟩
  | .hbm, ⟨36, _⟩ => ⟨S_, .f32⟩
  | .hbm, ⟨37, _⟩ => ⟨S50000x128, .f32⟩
  | .hbm, ⟨38, _⟩ => ⟨S800000x1, .i32⟩
  | .hbm, ⟨39, _⟩ => ⟨S50000x128, .f32⟩
  | .hbm, ⟨40, _⟩ => ⟨S1x128, .f32⟩
  | .hbm, ⟨41, _⟩ => ⟨S50000x128, .f32⟩
  | .hbm, ⟨42, _⟩ => ⟨S50000x128, .bf16⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .bf16⟩
  | .hbm, ⟨52, _⟩ => ⟨S800000x128, .f32⟩
  | .hbm, ⟨53, _⟩ => ⟨S_, .f32⟩
  | .hbm, ⟨54, _⟩ => ⟨S50000x128, .f32⟩
  | .hbm, ⟨55, _⟩ => ⟨S800000x1, .i32⟩
  | .hbm, ⟨56, _⟩ => ⟨S50000x128, .f32⟩
  | .hbm, ⟨57, _⟩ => ⟨S1x128, .f32⟩
  | .hbm, ⟨58, _⟩ => ⟨S50000x128, .f32⟩
  | .hbm, ⟨59, _⟩ => ⟨S50000x128, .bf16⟩
  | .hbm, ⟨60, _⟩ => ⟨S_, .i32⟩
  | .hbm, ⟨61, _⟩ => ⟨S800000, .i32⟩
  | .hbm, ⟨62, _⟩ => ⟨S800000, .i1⟩
  | .hbm, ⟨63, _⟩ => ⟨S_, .i32⟩
  | .hbm, ⟨64, _⟩ => ⟨S800000, .i32⟩
  | .hbm, ⟨65, _⟩ => ⟨S800000, .i32⟩
  | .hbm, ⟨66, _⟩ => ⟨S800000, .i32⟩
  | .hbm, ⟨67, _⟩ => ⟨S800000x1, .i32⟩
  | .hbm, ⟨68, _⟩ => ⟨S800000x128, .bf16⟩
  | .hbm, ⟨69, _⟩ => ⟨S800000x128, .f32⟩
  | .hbm, ⟨70, _⟩ => ⟨S_, .f32⟩
  | .hbm, ⟨71, _⟩ => ⟨S50000x128, .f32⟩
  | .hbm, ⟨72, _⟩ => ⟨S800000x1, .i32⟩
  | .hbm, ⟨73, _⟩ => ⟨S50000x128, .f32⟩
  | .hbm, ⟨74, _⟩ => ⟨S1x128, .f32⟩
  | .hbm, ⟨75, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S5000x1, .f32⟩
  | .local _ .vmem, ⟨3, _⟩ => ⟨S5000x1, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S5000x1, .f32⟩
  | .local _ .vmem, ⟨14, _⟩ => ⟨S5000x1, .f32⟩
  | .local _ .vmem, ⟨15, _⟩ => ⟨S5000x128, .f32⟩
  | .local _ .vmem, ⟨16, _⟩ => ⟨S5000x128, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x1, .f32⟩
  | .local _ .vmem, ⟨25, _⟩ => ⟨S5000x1, .f32⟩
  | .local _ .vmem, ⟨26, _⟩ => ⟨S5000x128, .f32⟩
  | .local _ .vmem, ⟨27, _⟩ => ⟨S5000x128, .f32⟩
  | .local _ .vmem, ⟨28, _⟩ => ⟨S128x128, .f32⟩
  | .local _ .vmem, ⟨29, _⟩ => ⟨S128x128, .f32⟩
  | .local _ .vmem, ⟨30, _⟩ => ⟨S1x128, .f32⟩
  | .local _ .vmem, ⟨31, _⟩ => ⟨S5000x128, .f32⟩
  | .local _ .vmem, ⟨32, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_c_4 : Ref sig .tc := ⟨.hbm, 43, rfl⟩
abbrev main_v26 : Ref sig .tc := ⟨.hbm, 44, rfl⟩
abbrev main_v27 : Ref sig .tc := ⟨.hbm, 45, rfl⟩
abbrev main_c_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_c_7 : Ref sig .tc := ⟨.hbm, 60, rfl⟩
abbrev main_v40 : Ref sig .tc := ⟨.hbm, 61, rfl⟩
abbrev main_v41 : Ref sig .tc := ⟨.hbm, 62, rfl⟩
abbrev main_c_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_9 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg2_1 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg6_1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem2_1 : DmaSem sig := 27
abbrev cc2_sem3_0 : DmaSem sig := 28
abbrev cc2_sem4_0 : DmaSem sig := 29
abbrev cc2_sem5_0 : DmaSem sig := 30
abbrev cc2_sem6_0 : DmaSem sig := 31
abbrev cc2_sem6_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S5000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  bcast_S_S50000x128 : S_.BroadcastsInDim S50000x128 (![] : Fin 0 → Fin S50000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x1.size a ≤ S50000x1.size a
  hwx0_1 : ∀ i : grid0.Coords, EltTy.bits .f32 = 32 ∨ (Rect.block (s := S50000x1) S5000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S50000x128.size a
  hwx0_6 : ∀ i : grid0.Coords, EltTy.bits .f32 = 32 ∨ (Rect.block (s := S50000x128) S5000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S5000x128.size a ≤ S50000x128.size a
  hwx2_6 : ∀ i : grid2.Coords, EltTy.bits .f32 = 32 ∨ (Rect.block (s := S50000x128) S5000x128.size (cc2_transform_6 i) (hinb2_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v22) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S5000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v36) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v24) S5000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v38) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v50) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S5000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg8) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg9) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v51) S1x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v52) S5000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩

abbrev nBuf : Space → Nat
  | .hbm => 114
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .i32⟩
  | .hbm, ⟨16, _⟩ => ⟨S800000, .i32⟩
  | .hbm, ⟨17, _⟩ => ⟨S800000, .i1⟩
  | .hbm, ⟨18, _⟩ => ⟨S_, .i32⟩
  | .hbm, ⟨19, _⟩ => ⟨S800000, .i32⟩
  | .hbm, ⟨20, _⟩ => ⟨S800000, .i32⟩
  | .hbm, ⟨21, _⟩ => ⟨S800000, .i32⟩
  | .hbm, ⟨22, _⟩ => ⟨S800000x1, .i32⟩
  | .hbm, ⟨23, _⟩ => ⟨S800000x128, .f32⟩
  | .hbm, ⟨24, _⟩ => ⟨S_, .f32⟩
  | .hbm, ⟨25, _⟩ => ⟨S50000x128, .f32⟩
  | .hbm, ⟨26, _⟩ => ⟨S800000x1, .i32⟩
  | .hbm, ⟨27, _⟩ => ⟨S50000x128, .f32⟩
  | .hbm, ⟨28, _⟩ => ⟨S_, .f32⟩
  | .hbm, ⟨29, _⟩ => ⟨S800000, .f32⟩
  | .hbm, ⟨30, _⟩ => ⟨S_, .f32⟩
  | .hbm, ⟨31, _⟩ => ⟨S50000, .f32⟩
  | .hbm, ⟨32, _⟩ => ⟨S800000x1, .i32⟩
  | .hbm, ⟨33, _⟩ => ⟨S50000, .f32⟩
  | .hbm, ⟨34, _⟩ => ⟨S_, .f32⟩
  | .hbm, ⟨35, _⟩ => ⟨S50000, .f32⟩
  | .hbm, ⟨36, _⟩ => ⟨S50000, .f32⟩
  | .hbm, ⟨37, _⟩ => ⟨S50000x1, .f32⟩
  | .hbm, ⟨38, _⟩ => ⟨S50000x128, .f32⟩
  | .hbm, ⟨39, _⟩ => ⟨S50000x128, .f32⟩
  | .hbm, ⟨40, _⟩ => ⟨S50000x128, .f32⟩
  | .hbm, ⟨41, _⟩ => ⟨S50000x128, .f32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S50000x128, .f32⟩
  | .hbm, ⟨46, _⟩ => ⟨S_, .f32⟩
  | .hbm, ⟨47, _⟩ => ⟨S50000x128, .f32⟩
  | .hbm, ⟨48, _⟩ => ⟨S50000x128, .f32⟩
  | .hbm, ⟨49, _⟩ => ⟨S_, .i32⟩
  | .hbm, ⟨50, _⟩ => ⟨S800000, .i32⟩
  | .hbm, ⟨51, _⟩ => ⟨S800000, .i1⟩
  | .hbm, ⟨52, _⟩ => ⟨S_, .i32⟩
  | .hbm, ⟨53, _⟩ => ⟨S800000, .i32⟩
  | .hbm, ⟨54, _⟩ => ⟨S800000, .i32⟩
  | .hbm, ⟨55, _⟩ => ⟨S800000, .i32⟩
  | .hbm, ⟨56, _⟩ => ⟨S800000x1, .i32⟩
  | .hbm, ⟨57, _⟩ => ⟨S800000x128, .f32⟩
  | .hbm, ⟨58, _⟩ => ⟨S_, .f32⟩
  | .hbm, ⟨59, _⟩ => ⟨S50000x128, .f32⟩
  | .hbm, ⟨60, _⟩ => ⟨S800000x1, .i32⟩
  | .hbm, ⟨61, _⟩ => ⟨S50000x128, .f32⟩
  | .hbm, ⟨62, _⟩ => ⟨S_, .f32⟩
  | .hbm, ⟨63, _⟩ => ⟨S800000, .f32⟩
  | .hbm, ⟨64, _⟩ => ⟨S_, .f32⟩
  | .hbm, ⟨65, _⟩ => ⟨S50000, .f32⟩
  | .hbm, ⟨66, _⟩ => ⟨S800000x1, .i32⟩
  | .hbm, ⟨67, _⟩ => ⟨S50000, .f32⟩
  | .hbm, ⟨68, _⟩ => ⟨S_, .f32⟩
  | .hbm, ⟨69, _⟩ => ⟨S50000, .f32⟩
  | .hbm, ⟨70, _⟩ => ⟨S50000, .f32⟩
  | .hbm, ⟨71, _⟩ => ⟨S50000x1, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S1x128, .f32⟩
  | .hbm, ⟨78, _⟩ => ⟨S50000x128, .f32⟩
  | .hbm, ⟨79, _⟩ => ⟨S50000x128, .f32⟩
  | .hbm, ⟨80, _⟩ => ⟨S_, .f32⟩
  | .hbm, ⟨81, _⟩ => ⟨S50000x128, .f32⟩
  | .hbm, ⟨82, _⟩ => ⟨S50000x128, .f32⟩
  | .hbm, ⟨83, _⟩ => ⟨S_, .i32⟩
  | .hbm, ⟨84, _⟩ => ⟨S800000, .i32⟩
  | .hbm, ⟨85, _⟩ => ⟨S800000, .i1⟩
  | .hbm, ⟨86, _⟩ => ⟨S_, .i32⟩
  | .hbm, ⟨87, _⟩ => ⟨S800000, .i32⟩
  | .hbm, ⟨88, _⟩ => ⟨S800000, .i32⟩
  | .hbm, ⟨89, _⟩ => ⟨S800000, .i32⟩
  | .hbm, ⟨90, _⟩ => ⟨S800000x1, .i32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S_, .f32⟩
  | .hbm, ⟨97, _⟩ => ⟨S800000, .f32⟩
  | .hbm, ⟨98, _⟩ => ⟨S_, .f32⟩
  | .hbm, ⟨99, _⟩ => ⟨S50000, .f32⟩
  | .hbm, ⟨100, _⟩ => ⟨S800000x1, .i32⟩
  | .hbm, ⟨101, _⟩ => ⟨S50000, .f32⟩
  | .hbm, ⟨102, _⟩ => ⟨S_, .f32⟩
  | .hbm, ⟨103, _⟩ => ⟨S50000, .f32⟩
  | .hbm, ⟨104, _⟩ => ⟨S50000, .f32⟩
  | .hbm, ⟨105, _⟩ => ⟨S50000x1, .f32⟩
  | .hbm, ⟨106, _⟩ => ⟨S50000x128, .f32⟩
  | .hbm, ⟨107, _⟩ => ⟨S50000x128, .f32⟩
  | .hbm, ⟨108, _⟩ => ⟨S50000x128, .f32⟩
  | .hbm, ⟨109, _⟩ => ⟨S50000x128, .f32⟩
  | .hbm, ⟨110, _⟩ => ⟨S50000x128, .f32⟩
  | .hbm, ⟨111, _⟩ => ⟨S1x128, .f32⟩
  | .hbm, ⟨112, _⟩ => ⟨S50000x128, .f32⟩
  | .hbm, ⟨113, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_7 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_call1_cst : Ref sig .tc := ⟨.hbm, 80, rfl⟩
abbrev main_call1_v0 : Ref sig .tc := ⟨.hbm, 81, rfl⟩
abbrev main_v55 : Ref sig .tc := ⟨.hbm, 82, rfl⟩
abbrev main_c_10 : Ref sig .tc := ⟨.hbm, 83, rfl⟩
abbrev main_v56 : Ref sig .tc := ⟨.hbm, 84, rfl⟩
abbrev main_v57 : Ref sig .tc := ⟨.hbm, 85, rfl⟩
abbrev main_c_11 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_12 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_cst_13 : Ref sig .tc := ⟨.hbm, 96, rfl⟩
abbrev main_v66 : Ref sig .tc := ⟨.hbm, 97, rfl⟩
abbrev main_cst_14 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_cst_15 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.RunValue.lean ====
/-
  The run of the idealized kernel program with its RESULT in the post.

  The program is three kernel regions among three stretches of host operations. Its buffer contents at the six segment
  boundaries are a fold from the launch memory (`W0 … W6`); after the last region every unscoped buffer of a core holds
  `W6` at it. The frame theorem reads only the argument buffers out of that last state; read here, by the same launch over the
  same segments, is also the result buffer: it ends at `W6` of its reference, and the arguments end as launched.
-/
import proofs.«148115_j86947317940720_2_alg».proof.Proof.PatchedKernelIdealFrame

set_option maxRecDepth 16384

noncomputable section

namespace Cert.KernelIdeal.RunValue

open Cert.KernelIdeal Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main terminates, nothing faulting; the result buffer ends at the last boundary's
    contents and the argument buffers as launched. -/
theorem run : θ_run defs (onTc (τ := τ) (main (F := F))) ⟨m, fun _ => 0, ρ⟩ (fun r => ∀ c : Dev nD,
      r.2.mem ((c.tc : Thread nD τ).loc main_v52) = W6 m ρ c (Proc.devRef .tc main_v52)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v52 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c)⟩)

end Cert.KernelIdeal.RunValue

end
-- ==== Proof.LibDotSum.lean ====
/-
  A matrix product's sum over the contraction index, re-indexed over the contracted extent: for the plain dimension numbers
  (left operand contracted on its columns, right operand on its rows, no batch axes) the sum over the one-axis contraction
  shape of the operands' products at the dot's operand indices is the sum over `kk : Fin K` of the left operand at
  (row of the output index, `kk`) times the right operand at (`kk`, column of the output index).
-/
import Idealize.ShloMosaic.Lib.ValueIdx
import Idealize.ShloMosaic.PureOps.Ideal.Laws

namespace Cert.Lib.DotSum

open Idealize.ShloMosaic Idealize.ShloMosaic.ValueIdx

variable {M K N : Nat} (d : DotDims ⟨2, ![M, K]⟩ ⟨2, ![K, N]⟩ ⟨2, ![M, N]⟩)

/-- The contraction shape has one axis, -/
theorem contr_rank (hlc : d.lhsContracting = [1]) : d.contr.rank = 1 := by
  rw [d.rank_contr, hlc]; rfl

/-- of the contracted extent. -/
theorem contr_size (hlc : d.lhsContracting = [1]) :
    d.contr.size ⟨0, by rw [contr_rank d hlc]; exact Nat.one_pos⟩ = K := by
  have h := d.size_contr 0 (by rw [hlc]; exact Nat.one_pos)
  rw [h, List.getElem_of_eq hlc]; rfl

/-- A coordinate of an output index depends on the axis's number only. -/
theorem out_coord (j : (⟨2, ![M, N]⟩ : Shape).Idx) (p q : Nat) (hp : p < 2) (hq : q < 2) (h : p = q) :
    (j ⟨p, hp⟩).val = (j ⟨q, hq⟩).val := by subst h; rfl

/-- The left operand's index reads the output's row on its rows, -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact out_coord j _ _ _ _ (by rw [hlb, hln]; rfl)

/-- the right operand's the output's column on its columns. -/
theorem rhs_col (hln : d.lhsNonContracting = [0]) (hrn : d.rhsNonContracting = [1]) (hlb : d.lhsBatch = []) (hrb : d.rhsBatch = [])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact out_coord j _ _ _ _ (by rw [hlb, hln, hrn]; rfl)

/-- THE SUM, RE-INDEXED: over the contracted extent, the left operand along the output's row times the right operand down the
    output's column. -/
theorem dot_sum (hlc : d.lhsContracting = [1]) (hrc : d.rhsContracting = [0]) (hln : d.lhsNonContracting = [0])
    (hrn : d.rhsNonContracting = [1]) (hlb : d.lhsBatch = []) (hrb : d.rhsBatch = [])
    (l : (⟨2, ![M, K]⟩ : Shape).Idx → EReal) (r : (⟨2, ![K, N]⟩ : Shape).Idx → EReal) (j : (⟨2, ![M, N]⟩ : Shape).Idx) :
    (∑ k : d.contr.Idx, l (d.lhsIdx j k) * r (d.rhsIdx j k)) = ∑ kk : Fin K, l (ix2 (j 0) kk) * r (ix2 kk (j 1)) := by
  have hr := contr_rank d hlc
  have hs := contr_size d hlc
  rw [← Equiv.sum_comp (contrEquiv1 d K hr hs).symm]
  refine Finset.sum_congr rfl fun kk _ => ?_
  have hk := contrEquiv1_symm_val d K hr hs kk
  have el : d.lhsIdx j ((contrEquiv1 d K hr hs).symm kk) = ix2 (j 0) kk := funext fun a => Fin.ext (by
    match a with
    | ⟨0, _⟩ => exact lhs_row d hln hlb j _
    | ⟨1, _⟩ => exact (d.lhsIdx_val_of_single hlc j _).trans hk)
  have er : d.rhsIdx j ((contrEquiv1 d K hr hs).symm kk) = ix2 kk (j 1) := funext fun a => Fin.ext (by
    match a with
    | ⟨0, _⟩ => exact (d.rhsIdx_val_of_single hrc j _).trans hk
    | ⟨1, _⟩ => exact rhs_col d hln hrn hlb hrb j _)
  rw [el, er]; rfl

end Cert.Lib.DotSum
-- ==== Proof.LibDot2.lean ====
/-
  The two matrix products read at an index as a sum over the contracted extent, for the plain dimension numbers (left
  operand contracted on its columns, right operand on its rows, no batch axes): the kernel's product into a zero
  accumulator and the host's product are both the sum over `kk` of left (row, kk) times right (kk, column).
-/
import proofs.«148115_j86947317940720_2_alg».proof.Proof.LibDotSum

namespace Cert.Lib.DotSum

open Idealize.ShloMosaic Idealize.ShloMosaic.ValueIdx

variable {M K N : Nat} (d : DotDims ⟨2, ![M, K]⟩ ⟨2, ![K, N]⟩ ⟨2, ![M, N]⟩)

/-- The kernel's matrix product into a zero accumulator. -/
theorem matmul_zero_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (l : FVec Ideal ⟨2, ![M, K]⟩ φ₁) (r : FVec Ideal ⟨2, ![K, N]⟩ φ₂) (p : Fin M) (q : Fin N) :
    FloatOps.matmul d prec l r (constant ⟨2, ![M, N]⟩ .f32 0x00000000#32) (ix2 p q) = ∑ kk : Fin K, l (ix2 p kk) * r (ix2 kk q) :=
  (Ideal.matmul_constant_zero_apply d prec l r (ix2 p q)).trans (dot_sum d hlc hrc hln hrn hlb hrb l r (ix2 p q))

/-- The host's matrix product. -/
theorem dotGeneral_at (hlc : d.lhsContracting = [1]) (hrc : d.rhsContracting = [0]) (hln : d.lhsNonContracting = [0])
    (hrn : d.rhsNonContracting = [1]) (hlb : d.lhsBatch = []) (hrb : d.rhsBatch = []) {φ₁ φ₂ : FTy} (prec : Option ContractPrecision)
    (sched : HostSchedule) (l : FVec Ideal ⟨2, ![M, K]⟩ φ₁) (r : FVec Ideal ⟨2, ![K, N]⟩ φ₂) (p : Fin M) (q : Fin N) :
    FloatOps.dotGeneral d prec sched l r (ix2 p q) = ∑ kk : Fin K, l (ix2 p kk) * r (ix2 kk q) :=
  (Ideal.dotGeneral_apply d prec sched l r (ix2 p q)).trans (dot_sum d hlc hrc hln hrn hlb hrb l r (ix2 p q))

end Cert.Lib.DotSum
-- ==== Proof.LibRows.lean ====
/-
  Rows and scalars laid under a matrix, read at an index (generic in the extents): a one-row array broadcast down the
  rows reads its row; a vector re-laid as a one-row array reads the vector; a vector broadcast first to a row and then
  down the rows reads the vector at the column; a scalar constant broadcast to any shape reads the constant.
-/
import Idealize.ShloMosaic.Lib.ValueIdx
import Idealize.ShloMosaic.Lib.Pipeline.Value
import Idealize.ShloMosaic.PureOps.Ideal.Laws

namespace Cert.Lib.Rows

open Idealize.ShloMosaic Idealize.ShloMosaic.ValueIdx

variable {α : Type}

/-- A one-row array broadcast down `m` rows reads its row. -/
theorem broadcastTo_row_apply {m n : Nat} (x : (⟨2, ![1, n]⟩ : Shape).Idx → α)
    (h : (⟨2, ![1, n]⟩ : Shape).Broadcasts ⟨2, ![m, n]⟩) (p : Fin m) (q : Fin n) :
    broadcastTo ⟨2, ![m, n]⟩ x h (ix2 p q) = x (ix2 0 q) := by
  refine broadcastTo_apply x h (ix2 p q) (ix2 0 q) fun a => ?_
  match a with
  | ⟨0, _⟩ => exact (if_pos rfl).symm
  | ⟨1, _⟩ =>
    show q.val = if n = 1 then 0 else q.val
    split
    · have := q.isLt; omega
    · rfl

/-- A vector re-laid as a one-row array reads the vector. -/
theorem shapeCast_row_apply {n : Nat} (b : (⟨1, ![n]⟩ : Shape).Idx → α)
    (h : (⟨1, ![n]⟩ : Shape).ShapeCasts ⟨2, ![1, n]⟩) (q : Fin n) :
    shapeCast ⟨2, ![1, n]⟩ b h (ix2 0 q) = b (ix1 q) := by
  refine shapeCast_apply b h (ix2 0 q) (ix1 q) ?_
  rw [Shape.rowMajor_val_one, Shape.rowMajor_val_two]
  show q.val = 0 * n + q.val
  omega

/-- A vector broadcast to a row, then down the rows, reads the vector at the column. -/
theorem rows_apply {m n : Nat} (b : (⟨1, ![n]⟩ : Shape).Idx → α)
    (h1 : (⟨1, ![n]⟩ : Shape).BroadcastsInDim ⟨2, ![1, n]⟩ ![1])
    (h2 : (⟨2, ![1, n]⟩ : Shape).BroadcastsInDim ⟨2, ![m, n]⟩ ![0, 1]) (p : Fin m) (q : Fin n) :
    broadcastInDim ⟨2, ![m, n]⟩ ![0, 1] h2 (broadcastInDim ⟨2, ![1, n]⟩ ![1] h1 b) (ix2 p q) = b (ix1 q) := by
  rw [broadcastInDim_apply ![0, 1] h2 _ (ix2 p q) (ix2 0 q) (fun a => by
    match a with
    | ⟨0, _⟩ => exact (if_pos rfl).symm
    | ⟨1, _⟩ =>
      show q.val = if n = 1 then 0 else q.val
      split
      · have := q.isLt; omega
      · rfl)]
  exact broadcastInDim_apply ![1] h1 b (ix2 0 q) (ix1 q) (fun a => by
    match a with
    | ⟨0, _⟩ =>
      show q.val = if n = 1 then 0 else q.val
      split
      · have := q.isLt; omega
      · rfl)

/-- A scalar broadcast to any shape reads the scalar. -/
theorem scalar_apply {t : Shape} (x : (⟨0, ![]⟩ : Shape).Idx → α) (h : (⟨0, ![]⟩ : Shape).BroadcastsInDim t ![]) (j : t.Idx) :
    broadcastInDim t ![] h x j = x ix0 :=
  broadcastInDim_apply ![] h x j ix0 (fun a => a.elim0)

end Cert.Lib.Rows
-- ==== Proof.LibColumn.lean ====
/-
  A column of per-row statistics, in the two layout forms a `keepdims` reduction leaves it in.

  A reduction along the last axis of an `[a, b]` array gives an `[a]` vector; kept as a column it is re-laid as `[a, 1]`, and to
  combine it with the array again it is broadcast back to `[a, b]`. Read at an index: the column at `(i, u)` is the vector at
  `i` whatever the unit coordinate, and the broadcast column at `(p, c)` is the column at `(p, 0)`. Generic in the extents;
  stated at indices built from literal coordinates (`ix1`, `ix2`), the form in which they rewrite.
-/
import Idealize.ShloMosaic.Lib.Pipeline.Value
import Idealize.ShloMosaic.Lib.ValueIdx

namespace Cert.Lib.Column

open Idealize.ShloMosaic Idealize.ShloMosaic.ValueIdx

variable {α : Type}

/-- An `[a]` vector re-laid as an `[a, 1]` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- An `[a, 1]` column broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.Spec.lean ====
/-
  One graph-convolution layer with mean aggregation, on the extended reals, and the two spellings of its dense half.

  A node's new feature row is its aggregated neighbour row divided by its degree, times one weight matrix, plus its own old
  row times a second weight matrix, plus a bias row:
    node a d h wl wr b q = (∑ k, (a k / d) · wl (k, q)) + (∑ k, h k · wr (k, q)) + b.
  `block_at` reads the spelling that works on a BLOCK of rows — the quotient against the degree column repeated along the
  row, both products taken into a zero accumulator with operands narrowed to bf16 (the identity on extended reals), the
  bias a one-row array repeated down the rows — at (p, q); `host_at` reads the whole-array spelling — the degree column
  broadcast, two plain products, the bias vector broadcast to a row and then down the rows — at (p, q). Both are `node` of
  row p of the operands: the same sums, term by term in the same order, so no law of the extended reals is used at all.
-/
import proofs.«148115_j86947317940720_2_alg».proof.Proof.LibDot2
import proofs.«148115_j86947317940720_2_alg».proof.Proof.LibRows
import proofs.«148115_j86947317940720_2_alg».proof.Proof.LibColumn

noncomputable section

namespace Cert.Sage

open Idealize.ShloMosaic Idealize.ShloMosaic.ValueIdx

/-- One node through the layer: `a` its aggregated neighbour row, `d` its degree, `h` its own row, `b` the bias at
    column `q`. -/
def node {K N : Nat} (a : Fin K → EReal) (d : EReal) (h : Fin K → EReal)
    (wl wr : FVec Ideal ⟨2, ![K, N]⟩ .f32) (b : EReal) (q : Fin N) : EReal :=
  ((∑ k : Fin K, Ideal.div (a k) d * wl (ix2 k q)) + ∑ k : Fin K, h k * wr (ix2 k q)) + b

/-- Equal operands give the same node. -/
theorem node_congr {K N : Nat} {a a' : Fin K → EReal} {d d' : EReal} {h h' : Fin K → EReal}
    {wl wl' wr wr' : FVec Ideal ⟨2, ![K, N]⟩ .f32} {b b' : EReal} (q : Fin N)
    (ea : a = a') (ed : d = d') (eh : h = h') (el : wl = wl') (er : wr = wr') (eb : b = b') :
    node a d h wl wr b q = node a' d' h' wl' wr' b' q := by
  subst ea ed eh el er eb; rfl

/-- The layer of a whole array of `M` nodes: entry (p, q) is `node` of row p. The bias is any function of the column. -/
def layer {M K N : Nat} (agg : FVec Ideal ⟨2, ![M, K]⟩ .f32) (deg : FVec Ideal ⟨2, ![M, 1]⟩ .f32)
    (h : FVec Ideal ⟨2, ![M, K]⟩ .f32) (wl wr : FVec Ideal ⟨2, ![K, N]⟩ .f32) (b : Fin N → EReal) :
    FVec Ideal ⟨2, ![M, N]⟩ .f32 :=
  fun i => node (fun k => agg (ix2 (i 0) k)) (deg (ix2 (i 0) (0 : Fin 1))) (fun k => h (ix2 (i 0) k)) wl wr (b (i 1)) (i 1)

/-- Every entry capped from below at the value of the zero word. -/
def relu0 {S : Shape} (x : FVec Ideal S .f32) : FVec Ideal S .f32 :=
  fun i => max (x i) (Ideal.ofBits .f32 0x00000000#32)

theorem layer_at {M K N : Nat} (agg : FVec Ideal ⟨2, ![M, K]⟩ .f32) (deg : FVec Ideal ⟨2, ![M, 1]⟩ .f32)
    (h : FVec Ideal ⟨2, ![M, K]⟩ .f32) (wl wr : FVec Ideal ⟨2, ![K, N]⟩ .f32) (b : Fin N → EReal) (p : Fin M) (q : Fin N) :
    layer agg deg h wl wr b (ix2 p q)
      = node (fun k => agg (ix2 p k)) (deg (ix2 p (0 : Fin 1))) (fun k => h (ix2 p k)) wl wr (b q) q := rfl

/-- A column broadcast along the rows by the host's `broadcast_in_dim` reads the column. -/
theorem column_apply {α : Type} {a b : Nat} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

section Spellings

variable {B K N : Nat} (d : DotDims ⟨2, ![B, K]⟩ ⟨2, ![K, N]⟩ ⟨2, ![B, N]⟩)

/-- The spelling on a block of `B` rows, at (p, q). -/
theorem block_at (hlc : d.lhsContracting = [1]) (hrc : d.rhsContracting = [0]) (hln : d.lhsNonContracting = [0])
    (hrn : d.rhsNonContracting = [1]) (hlb : d.lhsBatch = []) (hrb : d.rhsBatch = [])
    (x0 : FVec Ideal ⟨2, ![B, K]⟩ .f32) (x1 : FVec Ideal ⟨2, ![B, 1]⟩ .f32) (x2 : FVec Ideal ⟨2, ![B, K]⟩ .f32)
    (x3 x4 : FVec Ideal ⟨2, ![K, N]⟩ .f32) (x5 : FVec Ideal ⟨2, ![1, N]⟩ .f32)
    (hb1 : (⟨2, ![B, 1]⟩ : Shape).Broadcasts ⟨2, ![B, K]⟩) (hb5 : (⟨2, ![1, N]⟩ : Shape).Broadcasts ⟨2, ![B, N]⟩)
    (hlt : FTy.bf16.bits < FTy.f32.bits) (p : Fin B) (q : Fin N) :
    addf (addf
        (matmul d none (truncf .bf16 (divf x0 (broadcastTo ⟨2, ![B, K]⟩ x1 hb1)) hlt) (truncf .bf16 x3 hlt)
          (constant ⟨2, ![B, N]⟩ .f32 0x00000000#32))
        (matmul d none (truncf .bf16 x2 hlt) (truncf .bf16 x4 hlt) (constant ⟨2, ![B, N]⟩ .f32 0x00000000#32)))
      (broadcastTo ⟨2, ![B, N]⟩ x5 hb5) (ix2 p q)
      = node (fun k => x0 (ix2 p k)) (x1 (ix2 p (0 : Fin 1))) (fun k => x2 (ix2 p k)) x3 x4 (x5 (ix2 0 q)) q := by
  show FloatOps.matmul d none (truncf .bf16 (divf x0 (broadcastTo ⟨2, ![B, K]⟩ x1 hb1)) hlt) (truncf .bf16 x3 hlt)
        (constant ⟨2, ![B, N]⟩ .f32 0x00000000#32) (ix2 p q)
      + FloatOps.matmul d none (truncf .bf16 x2 hlt) (truncf .bf16 x4 hlt) (constant ⟨2, ![B, N]⟩ .f32 0x00000000#32) (ix2 p q)
      + broadcastTo ⟨2, ![B, N]⟩ x5 hb5 (ix2 p q) = _
  rw [Cert.Lib.DotSum.matmul_zero_at d hlc hrc hln hrn hlb hrb, Cert.Lib.DotSum.matmul_zero_at d hlc hrc hln hrn hlb hrb,
    Cert.Lib.Rows.broadcastTo_row_apply x5 hb5 p q]
  unfold node
  refine congrArg (· + x5 (ix2 0 q)) (congrArg₂ (· + ·) (Finset.sum_congr rfl fun k _ => ?_) rfl)
  show Ideal.div (x0 (ix2 p k)) (broadcastTo ⟨2, ![B, K]⟩ x1 hb1 (ix2 p k)) * x3 (ix2 k q) = _
  rw [Cert.Lib.Column.broadcastTo_a1_ab_apply x1 hb1 p k]

end Spellings

section Host

variable {M K N : Nat} (d : DotDims ⟨2, ![M, K]⟩ ⟨2, ![K, N]⟩ ⟨2, ![M, N]⟩)

/-- The whole-array spelling, at (p, q). -/
theorem host_at (hlc : d.lhsContracting = [1]) (hrc : d.rhsContracting = [0]) (hln : d.lhsNonContracting = [0])
    (hrn : d.rhsNonContracting = [1]) (hlb : d.lhsBatch = []) (hrb : d.rhsBatch = [])
    (agg : FVec Ideal ⟨2, ![M, K]⟩ .f32) (deg : FVec Ideal ⟨2, ![M, 1]⟩ .f32) (h : FVec Ideal ⟨2, ![M, K]⟩ .f32)
    (wl wr : FVec Ideal ⟨2, ![K, N]⟩ .f32) (b : FVec Ideal ⟨1, ![N]⟩ .f32)
    (hd : (⟨2, ![M, 1]⟩ : Shape).BroadcastsInDim ⟨2, ![M, K]⟩ ![0, 1])
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (addf
        (Host.dotGeneral d none (Host.divf agg (broadcastInDim ⟨2, ![M, K]⟩ ![0, 1] hd deg)) wl)
        (Host.dotGeneral d none h wr))
      (broadcastInDim ⟨2, ![M, N]⟩ ![0, 1] h2 (broadcastInDim ⟨2, ![1, N]⟩ ![1] h1 b)) (ix2 p q)
      = node (fun k => agg (ix2 p k)) (deg (ix2 p (0 : Fin 1))) (fun k => h (ix2 p k)) wl wr (b (ix1 q)) q := by
  show FloatOps.dotGeneral d none .single (Host.divf agg (broadcastInDim ⟨2, ![M, K]⟩ ![0, 1] hd deg)) wl (ix2 p q)
      + FloatOps.dotGeneral d none .single h wr (ix2 p q)
      + broadcastInDim ⟨2, ![M, N]⟩ ![0, 1] h2 (broadcastInDim ⟨2, ![1, N]⟩ ![1] h1 b) (ix2 p q) = _
  rw [Cert.Lib.DotSum.dotGeneral_at d hlc hrc hln hrn hlb hrb, Cert.Lib.DotSum.dotGeneral_at d hlc hrc hln hrn hlb hrb,
    Cert.Lib.Rows.rows_apply b h1 h2 p q]
  unfold node
  refine congrArg (· + b (ix1 q)) (congrArg₂ (· + ·) (Finset.sum_congr rfl fun k _ => ?_) rfl)
  show Ideal.div (agg (ix2 p k)) (broadcastInDim ⟨2, ![M, K]⟩ ![0, 1] hd deg (ix2 p k)) * wl (ix2 k q) = _
  rw [column_apply deg hd p k]

end Host

end Cert.Sage

end
-- ==== Proof.Layer0.lean ====
/-
  The first layer's kernel, from the contents `V` its region is entered with to the array it leaves.

  The grid has ten points; point t works on rows 5000·t … 5000·t + 4999. Its blocks of the aggregated array, of the degree
  column and of the feature array are those rows; the two weight matrices and the one-row bias are whole at every point.
  The body stores ONE value over the whole output block: at (p, q) it is the node function of row p of the blocks, capped
  from below at zero (`pay_at`), that is, of row 5000·t + p of the arrays (`read…`). So what point t writes back is block t of ONE
  function of the entry contents (`flushed_eq`); the ten blocks tile the array (`cover`: row r is in block r / 5000), and
  the array ends holding that function (`final`).
-/
import proofs.«148115_j86947317940720_2_alg».proof.Proof.PatchedKernelIdealFrame
import proofs.«148115_j86947317940720_2_alg».proof.Proof.Spec
import Idealize.ShloMosaic.Lib.Pipeline.Value

noncomputable section

namespace Cert.KernelIdeal.Layer0

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q): the node function of row p of the loaded blocks, capped at zero. -/
theorem pay_at (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k0_pay1 x0 x1 x2 x3 x4 x5 (ix2 p q)
      = max (Cert.Sage.node (fun k => x0 (ix2 p k)) (x1 (ix2 p (0 : Fin 1))) (fun k => x2 (ix2 p k)) x3 x4 (x5 (ix2 0 q)) q)
          (Ideal.ofBits .f32 0x00000000#32) := by
  unfold k0_pay1
  simp only [shapeCast_self]
  exact congrArg (max · (Ideal.ofBits .f32 0x00000000#32))
    (Cert.Sage.block_at dot_S5000x128_S128x128_S5000x128_1_0_0_1_n_n rfl rfl rfl rfl rfl rfl x0 x1 x2 x3 x4 x5
      broadcasts_S5000x1_S5000x128 broadcasts_S1x128_S5000x128 bitsLt_bf16_f32 p q)

/-- Over the grid: the row-blocked windows sit at block (t, 0), the whole-array windows at block (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- The aggregated array's block at point t is its rows 5000·t …. -/
theorem read0 (c : Dev nD) (t : Fin cfg0.N) (x : S5000x128.Idx) (i : S50000x128.Idx)
    (h0 : (i 0).val = t.val * 5000 + (x 0).val) (h1 : (i 1).val = (x 1).val) :
    (iblk0 V c 0 t : Vec Ideal S5000x128 .f32) x = (V c main_v22 : S50000x128.Idx → EReal) i := by
  obtain ⟨e0, e1, -⟩ := idx_facts t
  unfold iblk0
  rw [View.read_apply]
  show V c main_v22 _ = V c main_v22 _
  refine congrArg _ (funext fun a => Fin.ext ?_)
  match a with
  | ⟨0, _⟩ => show win0_0.index t (0 : Fin 2) * 5000 + 1 * (x 0).val = (i 0).val; rw [e0, h0]; omega
  | ⟨1, _⟩ => show win0_0.index t (1 : Fin 2) * 128 + 1 * (x 1).val = (i 1).val; rw [e1, h1]; omega

/-- The degree column's block: the same rows. -/
theorem read1 (c : Dev nD) (t : Fin cfg0.N) (x : S5000x1.Idx) (i : S50000x1.Idx)
    (h0 : (i 0).val = t.val * 5000 + (x 0).val) (h1 : (i 1).val = (x 1).val) :
    (iblk0 V c 1 t : Vec Ideal S5000x1 .f32) x = (V c main_v10 : S50000x1.Idx → EReal) i := by
  obtain ⟨-, -, e0, e1, -⟩ := idx_facts t
  unfold iblk0
  rw [View.read_apply]
  show V c main_v10 _ = V c main_v10 _
  refine congrArg _ (funext fun a => Fin.ext ?_)
  match a with
  | ⟨0, _⟩ => show win0_1.index t (0 : Fin 2) * 5000 + 1 * (x 0).val = (i 0).val; rw [e0, h0]; omega
  | ⟨1, _⟩ => show win0_1.index t (1 : Fin 2) * 1 + 1 * (x 1).val = (i 1).val; rw [e1, h1]; omega

/-- The feature array's block: the same rows. -/
theorem read2 (c : Dev nD) (t : Fin cfg0.N) (x : S5000x128.Idx) (i : S50000x128.Idx)
    (h0 : (i 0).val = t.val * 5000 + (x 0).val) (h1 : (i 1).val = (x 1).val) :
    (iblk0 V c 2 t : Vec Ideal S5000x128 .f32) x = (V c main_arg0 : S50000x128.Idx → EReal) i := by
  obtain ⟨-, -, -, -, e0, e1, -⟩ := idx_facts t
  unfold iblk0
  rw [View.read_apply]
  show V c main_arg0 _ = V c main_arg0 _
  refine congrArg _ (funext fun a => Fin.ext ?_)
  match a with
  | ⟨0, _⟩ => show win0_2.index t (0 : Fin 2) * 5000 + 1 * (x 0).val = (i 0).val; rw [e0, h0]; omega
  | ⟨1, _⟩ => show win0_2.index t (1 : Fin 2) * 128 + 1 * (x 1).val = (i 1).val; rw [e1, h1]; omega

/-- The first weight matrix's block is the matrix. -/
theorem read3 (c : Dev nD) (t : Fin cfg0.N) :
    (iblk0 V c 3 t : Vec Ideal S128x128 .f32) = (V c main_arg2 : S128x128.Idx → EReal) := by
  obtain ⟨-, -, -, -, -, -, e0, e1, -⟩ := idx_facts t
  funext x
  unfold iblk0
  rw [View.read_apply]
  show V c main_arg2 _ = V c main_arg2 _
  refine congrArg _ (funext fun a => Fin.ext ?_)
  match a with
  | ⟨0, _⟩ => show win0_3.index t (0 : Fin 2) * 128 + 1 * (x 0).val = (x 0).val; rw [e0]; omega
  | ⟨1, _⟩ => show win0_3.index t (1 : Fin 2) * 128 + 1 * (x 1).val = (x 1).val; rw [e1]; omega

/-- The second weight matrix's block is the matrix. -/
theorem read4 (c : Dev nD) (t : Fin cfg0.N) :
    (iblk0 V c 4 t : Vec Ideal S128x128 .f32) = (V c main_arg3 : S128x128.Idx → EReal) := by
  obtain ⟨-, -, -, -, -, -, -, -, e0, e1, -⟩ := idx_facts t
  funext x
  unfold iblk0
  rw [View.read_apply]
  show V c main_arg3 _ = V c main_arg3 _
  refine congrArg _ (funext fun a => Fin.ext ?_)
  match a with
  | ⟨0, _⟩ => show win0_4.index t (0 : Fin 2) * 128 + 1 * (x 0).val = (x 0).val; rw [e0]; omega
  | ⟨1, _⟩ => show win0_4.index t (1 : Fin 2) * 128 + 1 * (x 1).val = (x 1).val; rw [e1]; omega

/-- The bias row's block is the row. -/
theorem read5 (c : Dev nD) (t : Fin cfg0.N) :
    (iblk0 V c 5 t : Vec Ideal S1x128 .f32) = (V c main_v23 : S1x128.Idx → EReal) := by
  obtain ⟨-, -, -, -, -, -, -, -, -, -, e0, e1, -⟩ := idx_facts t
  funext x
  unfold iblk0
  rw [View.read_apply]
  show V c main_v23 _ = V c main_v23 _
  refine congrArg _ (funext fun a => Fin.ext ?_)
  match a with
  | ⟨0, _⟩ => show win0_5.index t (0 : Fin 2) * 1 + 1 * (x 0).val = (x 0).val; rw [e0]; omega
  | ⟨1, _⟩ => show win0_5.index t (1 : Fin 2) * 128 + 1 * (x 1).val = (x 1).val; rw [e1]; omega

/-- Where element (p, q) of the output block at point t sits in the output array: row 5000·t + p. -/
theorem emb6 (t : Fin cfg0.N) (p : Fin 5000) (q : Fin 128) (r : Fin 50000) (hr : r.val = t.val * 5000 + p.val) :
    ((cfg0.win 6).blk t).view.emb (ix2 p q) = (ix2 r q : S50000x128.Idx) := by
  obtain ⟨-, -, -, -, -, -, -, -, -, -, -, -, e0, e1⟩ := idx_facts t
  funext a
  apply Fin.ext
  match a with
  | ⟨0, _⟩ => show win0_6.index t (0 : Fin 2) * 5000 + 1 * p.val = r.val; rw [e0, hr]; omega
  | ⟨1, _⟩ => show win0_6.index t (1 : Fin 2) * 128 + 1 * q.val = q.val; rw [e1]; omega

/-- What the region leaves in its output array, as one function of the contents it is entered with. -/
def out (c : Dev nD) : Buf (Elt Ideal) ((c : Thread nD τ).loc main_v24) :=
  Cert.Sage.relu0 (S := S50000x128) (Cert.Sage.layer (M := 50000) (K := 128) (N := 128) (V c main_v22) (V c main_v10) (V c main_arg0)
      (V c main_arg2) (V c main_arg3) (fun q => (V c main_v23 : S1x128.Idx → EReal) (ix2 0 q)))

/-- WHAT POINT t WRITES BACK is block t of `out`. -/
theorem flushed_eq (c : Dev nD) (t : Fin cfg0.N) :
    (dat0 V c).flushed 6 t = ((cfg0.win 6).blk t).view.read (Elt Ideal) (out V c) := by
  show (cfg0.win 6).cut (grid0.coords t) ((dat0 V c).after 6 t) = _
  rw [after0_6]
  unfold out0_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := (N_0 ▸ t.isLt : t.val < 10)
  have hr : t.val * 5000 + p.val < 50000 := by have := p.isLt; omega
  refine (pay_at (iblk0 V c 0 t) (iblk0 V c 1 t) (iblk0 V c 2 t) (iblk0 V c 3 t) (iblk0 V c 4 t) (iblk0 V c 5 t) p q).trans ?_
  show _ = out V c (((cfg0.win 6).blk t).view.emb (ix2 p q))
  rw [emb6 t p q ⟨t.val * 5000 + p.val, hr⟩ rfl]
  have a0 : (fun k : Fin 128 => (iblk0 V c 0 t : Vec Ideal S5000x128 .f32) (ix2 p k))
      = fun k : Fin 128 => (V c main_v22 : S50000x128.Idx → EReal) (ix2 (⟨t.val * 5000 + p.val, hr⟩ : Fin 50000) k) :=
    funext fun k => read0 V c t (ix2 p k) (ix2 (⟨t.val * 5000 + p.val, hr⟩ : Fin 50000) k) rfl rfl
  have a1 : (iblk0 V c 1 t : Vec Ideal S5000x1 .f32) (ix2 p (0 : Fin 1))
      = (V c main_v10 : S50000x1.Idx → EReal) (ix2 (⟨t.val * 5000 + p.val, hr⟩ : Fin 50000) (0 : Fin 1)) :=
    read1 V c t (ix2 p (0 : Fin 1)) (ix2 (⟨t.val * 5000 + p.val, hr⟩ : Fin 50000) (0 : Fin 1)) rfl rfl
  have a2 : (fun k : Fin 128 => (iblk0 V c 2 t : Vec Ideal S5000x128 .f32) (ix2 p k))
      = fun k : Fin 128 => (V c main_arg0 : S50000x128.Idx → EReal) (ix2 (⟨t.val * 5000 + p.val, hr⟩ : Fin 50000) k) :=
    funext fun k => read2 V c t (ix2 p k) (ix2 (⟨t.val * 5000 + p.val, hr⟩ : Fin 50000) k) rfl rfl
  have a3 := read3 V c t
  have a4 := read4 V c t
  have a5 : (iblk0 V c 5 t : Vec Ideal S1x128 .f32) (ix2 0 q) = (V c main_v23 : S1x128.Idx → EReal) (ix2 0 q) :=
    congrFun (read5 V c t) (ix2 0 q)
  exact congrArg (max · (Ideal.ofBits .f32 0x00000000#32)) (Cert.Sage.node_congr q a0 a1 a2 a3 a4 a5)

/-- An index of the output array is in point t's block iff each coordinate is in the block's range on its axis. -/
theorem mem_blk (t : Fin cfg0.N) (i : S50000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v24).slice (win0_6.rect t)).set ↔ _
  rw [View.set_slice_whole, Rect.mem_set_unit]
  exact Iff.rfl

/-- THE TEN BLOCKS TILE THE ARRAY: row r is in the block of point r / 5000. -/
theorem cover (i : S50000x128.Idx) :
    ∃ t : Fin cfg0.N, (cfg0.win 6).flush t = true ∧ i ∈ ((cfg0.win 6).blk t).view.set := by
  have hi0 : (i 0).val < 50000 := (i 0).isLt
  have hi1 : (i 1).val < 128 := (i 1).isLt
  have hN : cfg0.N = 10 := N_0
  have htl : (i 0).val / 5000 < cfg0.N := by rw [hN]; omega
  obtain ⟨-, -, -, -, -, -, -, -, -, -, -, -, e0, e1⟩ := idx_facts ⟨(i 0).val / 5000, htl⟩
  refine ⟨⟨(i 0).val / 5000, htl⟩, flush0_6 _, ?_⟩
  rw [mem_blk]
  intro a
  match a with
  | ⟨0, _⟩ =>
    show win0_6.index ⟨(i 0).val / 5000, htl⟩ (0 : Fin 2) * 5000 ≤ (i 0).val
      ∧ (i 0).val < win0_6.index ⟨(i 0).val / 5000, htl⟩ (0 : Fin 2) * 5000 + 5000
    rw [e0]
    show (i 0).val / 5000 * 5000 ≤ (i 0).val ∧ (i 0).val < (i 0).val / 5000 * 5000 + 5000
    omega
  | ⟨1, _⟩ =>
    show win0_6.index ⟨(i 0).val / 5000, htl⟩ (1 : Fin 2) * 128 ≤ (i 1).val
      ∧ (i 1).val < win0_6.index ⟨(i 0).val / 5000, htl⟩ (1 : Fin 2) * 128 + 128
    rw [e1]
    omega

/-- THE ARRAY AFTER THE REGION is `out` of the contents the region was entered with. -/
theorem final (c : Dev nD) : (dat0 V c).arrAt 6 cfg0.N = out V c :=
  (dat0 V c).arrAt_eq_of_cover 6 (out V c) (fun t _ => flushed_eq V c t) (cover)

end Cert.KernelIdeal.Layer0

end
-- ==== Proof.Layer1.lean ====
/-
  The second layer's kernel, from the contents `V` its region is entered with to the array it leaves.

  The grid has ten points; point t works on rows 5000·t … 5000·t + 4999. Its blocks of the aggregated array, of the degree
  column and of the feature array are those rows; the two weight matrices and the one-row bias are whole at every point.
  The body stores ONE value over the whole output block: at (p, q) it is the node function of row p of the blocks, capped
  from below at zero (`pay_at`), that is, of row 5000·t + p of the arrays (`read…`). So what point t writes back is block t of ONE
  function of the entry contents (`flushed_eq`); the ten blocks tile the array (`cover`: row r is in block r / 5000), and
  the array ends holding that function (`final`).
-/
import proofs.«148115_j86947317940720_2_alg».proof.Proof.PatchedKernelIdealFrame
import proofs.«148115_j86947317940720_2_alg».proof.Proof.Spec
import Idealize.ShloMosaic.Lib.Pipeline.Value

noncomputable section

namespace Cert.KernelIdeal.Layer1

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q): the node function of row p of the loaded blocks, capped at zero. -/
theorem pay_at (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k1_pay1 x0 x1 x2 x3 x4 x5 (ix2 p q)
      = max (Cert.Sage.node (fun k => x0 (ix2 p k)) (x1 (ix2 p (0 : Fin 1))) (fun k => x2 (ix2 p k)) x3 x4 (x5 (ix2 0 q)) q)
          (Ideal.ofBits .f32 0x00000000#32) := by
  unfold k1_pay1
  simp only [shapeCast_self]
  exact congrArg (max · (Ideal.ofBits .f32 0x00000000#32))
    (Cert.Sage.block_at dot_S5000x128_S128x128_S5000x128_1_0_0_1_n_n rfl rfl rfl rfl rfl rfl x0 x1 x2 x3 x4 x5
      broadcasts_S5000x1_S5000x128 broadcasts_S1x128_S5000x128 bitsLt_bf16_f32 p q)

/-- Over the grid: the row-blocked windows sit at block (t, 0), the whole-array windows at block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The aggregated array's block at point t is its rows 5000·t …. -/
theorem read0 (c : Dev nD) (t : Fin cfg1.N) (x : S5000x128.Idx) (i : S50000x128.Idx)
    (h0 : (i 0).val = t.val * 5000 + (x 0).val) (h1 : (i 1).val = (x 1).val) :
    (iblk1 V c 0 t : Vec Ideal S5000x128 .f32) x = (V c main_v36 : S50000x128.Idx → EReal) i := by
  obtain ⟨e0, e1, -⟩ := idx_facts t
  unfold iblk1
  rw [View.read_apply]
  show V c main_v36 _ = V c main_v36 _
  refine congrArg _ (funext fun a => Fin.ext ?_)
  match a with
  | ⟨0, _⟩ => show win1_0.index t (0 : Fin 2) * 5000 + 1 * (x 0).val = (i 0).val; rw [e0, h0]; omega
  | ⟨1, _⟩ => show win1_0.index t (1 : Fin 2) * 128 + 1 * (x 1).val = (i 1).val; rw [e1, h1]; omega

/-- The degree column's block: the same rows. -/
theorem read1 (c : Dev nD) (t : Fin cfg1.N) (x : S5000x1.Idx) (i : S50000x1.Idx)
    (h0 : (i 0).val = t.val * 5000 + (x 0).val) (h1 : (i 1).val = (x 1).val) :
    (iblk1 V c 1 t : Vec Ideal S5000x1 .f32) x = (V c main_v10 : S50000x1.Idx → EReal) i := by
  obtain ⟨-, -, e0, e1, -⟩ := idx_facts t
  unfold iblk1
  rw [View.read_apply]
  show V c main_v10 _ = V c main_v10 _
  refine congrArg _ (funext fun a => Fin.ext ?_)
  match a with
  | ⟨0, _⟩ => show win1_1.index t (0 : Fin 2) * 5000 + 1 * (x 0).val = (i 0).val; rw [e0, h0]; omega
  | ⟨1, _⟩ => show win1_1.index t (1 : Fin 2) * 1 + 1 * (x 1).val = (i 1).val; rw [e1, h1]; omega

/-- The feature array's block: the same rows. -/
theorem read2 (c : Dev nD) (t : Fin cfg1.N) (x : S5000x128.Idx) (i : S50000x128.Idx)
    (h0 : (i 0).val = t.val * 5000 + (x 0).val) (h1 : (i 1).val = (x 1).val) :
    (iblk1 V c 2 t : Vec Ideal S5000x128 .f32) x = (V c main_v24 : S50000x128.Idx → EReal) i := by
  obtain ⟨-, -, -, -, e0, e1, -⟩ := idx_facts t
  unfold iblk1
  rw [View.read_apply]
  show V c main_v24 _ = V c main_v24 _
  refine congrArg _ (funext fun a => Fin.ext ?_)
  match a with
  | ⟨0, _⟩ => show win1_2.index t (0 : Fin 2) * 5000 + 1 * (x 0).val = (i 0).val; rw [e0, h0]; omega
  | ⟨1, _⟩ => show win1_2.index t (1 : Fin 2) * 128 + 1 * (x 1).val = (i 1).val; rw [e1, h1]; omega

/-- The first weight matrix's block is the matrix. -/
theorem read3 (c : Dev nD) (t : Fin cfg1.N) :
    (iblk1 V c 3 t : Vec Ideal S128x128 .f32) = (V c main_arg5 : S128x128.Idx → EReal) := by
  obtain ⟨-, -, -, -, -, -, e0, e1, -⟩ := idx_facts t
  funext x
  unfold iblk1
  rw [View.read_apply]
  show V c main_arg5 _ = V c main_arg5 _
  refine congrArg _ (funext fun a => Fin.ext ?_)
  match a with
  | ⟨0, _⟩ => show win1_3.index t (0 : Fin 2) * 128 + 1 * (x 0).val = (x 0).val; rw [e0]; omega
  | ⟨1, _⟩ => show win1_3.index t (1 : Fin 2) * 128 + 1 * (x 1).val = (x 1).val; rw [e1]; omega

/-- The second weight matrix's block is the matrix. -/
theorem read4 (c : Dev nD) (t : Fin cfg1.N) :
    (iblk1 V c 4 t : Vec Ideal S128x128 .f32) = (V c main_arg6 : S128x128.Idx → EReal) := by
  obtain ⟨-, -, -, -, -, -, -, -, e0, e1, -⟩ := idx_facts t
  funext x
  unfold iblk1
  rw [View.read_apply]
  show V c main_arg6 _ = V c main_arg6 _
  refine congrArg _ (funext fun a => Fin.ext ?_)
  match a with
  | ⟨0, _⟩ => show win1_4.index t (0 : Fin 2) * 128 + 1 * (x 0).val = (x 0).val; rw [e0]; omega
  | ⟨1, _⟩ => show win1_4.index t (1 : Fin 2) * 128 + 1 * (x 1).val = (x 1).val; rw [e1]; omega

/-- The bias row's block is the row. -/
theorem read5 (c : Dev nD) (t : Fin cfg1.N) :
    (iblk1 V c 5 t : Vec Ideal S1x128 .f32) = (V c main_v37 : S1x128.Idx → EReal) := by
  obtain ⟨-, -, -, -, -, -, -, -, -, -, e0, e1, -⟩ := idx_facts t
  funext x
  unfold iblk1
  rw [View.read_apply]
  show V c main_v37 _ = V c main_v37 _
  refine congrArg _ (funext fun a => Fin.ext ?_)
  match a with
  | ⟨0, _⟩ => show win1_5.index t (0 : Fin 2) * 1 + 1 * (x 0).val = (x 0).val; rw [e0]; omega
  | ⟨1, _⟩ => show win1_5.index t (1 : Fin 2) * 128 + 1 * (x 1).val = (x 1).val; rw [e1]; omega

/-- Where element (p, q) of the output block at point t sits in the output array: row 5000·t + p. -/
theorem emb6 (t : Fin cfg1.N) (p : Fin 5000) (q : Fin 128) (r : Fin 50000) (hr : r.val = t.val * 5000 + p.val) :
    ((cfg1.win 6).blk t).view.emb (ix2 p q) = (ix2 r q : S50000x128.Idx) := by
  obtain ⟨-, -, -, -, -, -, -, -, -, -, -, -, e0, e1⟩ := idx_facts t
  funext a
  apply Fin.ext
  match a with
  | ⟨0, _⟩ => show win1_6.index t (0 : Fin 2) * 5000 + 1 * p.val = r.val; rw [e0, hr]; omega
  | ⟨1, _⟩ => show win1_6.index t (1 : Fin 2) * 128 + 1 * q.val = q.val; rw [e1]; omega

/-- What the region leaves in its output array, as one function of the contents it is entered with. -/
def out (c : Dev nD) : Buf (Elt Ideal) ((c : Thread nD τ).loc main_v38) :=
  Cert.Sage.relu0 (S := S50000x128) (Cert.Sage.layer (M := 50000) (K := 128) (N := 128) (V c main_v36) (V c main_v10) (V c main_v24)
      (V c main_arg5) (V c main_arg6) (fun q => (V c main_v37 : S1x128.Idx → EReal) (ix2 0 q)))

/-- WHAT POINT t WRITES BACK is block t of `out`. -/
theorem flushed_eq (c : Dev nD) (t : Fin cfg1.N) :
    (dat1 V c).flushed 6 t = ((cfg1.win 6).blk t).view.read (Elt Ideal) (out V c) := by
  show (cfg1.win 6).cut (grid1.coords t) ((dat1 V c).after 6 t) = _
  rw [after1_6]
  unfold out1_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := (N_1 ▸ t.isLt : t.val < 10)
  have hr : t.val * 5000 + p.val < 50000 := by have := p.isLt; omega
  refine (pay_at (iblk1 V c 0 t) (iblk1 V c 1 t) (iblk1 V c 2 t) (iblk1 V c 3 t) (iblk1 V c 4 t) (iblk1 V c 5 t) p q).trans ?_
  show _ = out V c (((cfg1.win 6).blk t).view.emb (ix2 p q))
  rw [emb6 t p q ⟨t.val * 5000 + p.val, hr⟩ rfl]
  have a0 : (fun k : Fin 128 => (iblk1 V c 0 t : Vec Ideal S5000x128 .f32) (ix2 p k))
      = fun k : Fin 128 => (V c main_v36 : S50000x128.Idx → EReal) (ix2 (⟨t.val * 5000 + p.val, hr⟩ : Fin 50000) k) :=
    funext fun k => read0 V c t (ix2 p k) (ix2 (⟨t.val * 5000 + p.val, hr⟩ : Fin 50000) k) rfl rfl
  have a1 : (iblk1 V c 1 t : Vec Ideal S5000x1 .f32) (ix2 p (0 : Fin 1))
      = (V c main_v10 : S50000x1.Idx → EReal) (ix2 (⟨t.val * 5000 + p.val, hr⟩ : Fin 50000) (0 : Fin 1)) :=
    read1 V c t (ix2 p (0 : Fin 1)) (ix2 (⟨t.val * 5000 + p.val, hr⟩ : Fin 50000) (0 : Fin 1)) rfl rfl
  have a2 : (fun k : Fin 128 => (iblk1 V c 2 t : Vec Ideal S5000x128 .f32) (ix2 p k))
      = fun k : Fin 128 => (V c main_v24 : S50000x128.Idx → EReal) (ix2 (⟨t.val * 5000 + p.val, hr⟩ : Fin 50000) k) :=
    funext fun k => read2 V c t (ix2 p k) (ix2 (⟨t.val * 5000 + p.val, hr⟩ : Fin 50000) k) rfl rfl
  have a3 := read3 V c t
  have a4 := read4 V c t
  have a5 : (iblk1 V c 5 t : Vec Ideal S1x128 .f32) (ix2 0 q) = (V c main_v37 : S1x128.Idx → EReal) (ix2 0 q) :=
    congrFun (read5 V c t) (ix2 0 q)
  exact congrArg (max · (Ideal.ofBits .f32 0x00000000#32)) (Cert.Sage.node_congr q a0 a1 a2 a3 a4 a5)

/-- An index of the output array is in point t's block iff each coordinate is in the block's range on its axis. -/
theorem mem_blk (t : Fin cfg1.N) (i : S50000x128.Idx) :
    i ∈ ((cfg1.win 6).blk t).view.set ↔ ∀ a : Fin 2, win1_6.index t a * S5000x128.size a ≤ (i a).val
      ∧ (i a).val < win1_6.index t a * S5000x128.size a + S5000x128.size a := by
  show i ∈ ((View.whole main_v38).slice (win1_6.rect t)).set ↔ _
  rw [View.set_slice_whole, Rect.mem_set_unit]
  exact Iff.rfl

/-- THE TEN BLOCKS TILE THE ARRAY: row r is in the block of point r / 5000. -/
theorem cover (i : S50000x128.Idx) :
    ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  have htl : (i 0).val / 5000 < cfg1.N := by rw [hN]; omega
  obtain ⟨-, -, -, -, -, -, -, -, -, -, -, -, e0, e1⟩ := idx_facts ⟨(i 0).val / 5000, htl⟩
  refine ⟨⟨(i 0).val / 5000, htl⟩, flush1_6 _, ?_⟩
  rw [mem_blk]
  intro a
  match a with
  | ⟨0, _⟩ =>
    show win1_6.index ⟨(i 0).val / 5000, htl⟩ (0 : Fin 2) * 5000 ≤ (i 0).val
      ∧ (i 0).val < win1_6.index ⟨(i 0).val / 5000, htl⟩ (0 : Fin 2) * 5000 + 5000
    rw [e0]
    show (i 0).val / 5000 * 5000 ≤ (i 0).val ∧ (i 0).val < (i 0).val / 5000 * 5000 + 5000
    omega
  | ⟨1, _⟩ =>
    show win1_6.index ⟨(i 0).val / 5000, htl⟩ (1 : Fin 2) * 128 ≤ (i 1).val
      ∧ (i 1).val < win1_6.index ⟨(i 0).val / 5000, htl⟩ (1 : Fin 2) * 128 + 128
    rw [e1]
    omega

/-- THE ARRAY AFTER THE REGION is `out` of the contents the region was entered with. -/
theorem final (c : Dev nD) : (dat1 V c).arrAt 6 cfg1.N = out V c :=
  (dat1 V c).arrAt_eq_of_cover 6 (out V c) (fun t _ => flushed_eq V c t) (cover)

end Cert.KernelIdeal.Layer1

end
-- ==== Proof.Layer2.lean ====
/-
  The third layer's kernel, from the contents `V` its region is entered with to the array it leaves.

  The grid has ten points; point t works on rows 5000·t … 5000·t + 4999. Its blocks of the aggregated array, of the degree
  column and of the feature array are those rows; the two weight matrices and the one-row bias are whole at every point.
  The body stores ONE value over the whole output block: at (p, q) it is the node function of row p of the blocks (`pay_at`), that is, of row 5000·t + p of the arrays (`read…`). So what point t writes back is block t of ONE
  function of the entry contents (`flushed_eq`); the ten blocks tile the array (`cover`: row r is in block r / 5000), and
  the array ends holding that function (`final`).
-/
import proofs.«148115_j86947317940720_2_alg».proof.Proof.PatchedKernelIdealFrame
import proofs.«148115_j86947317940720_2_alg».proof.Proof.Spec
import Idealize.ShloMosaic.Lib.Pipeline.Value

noncomputable section

namespace Cert.KernelIdeal.Layer2

open Cert.KernelIdeal Cert.KernelIdeal.Gen Cert.KernelIdeal.GenP
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The body's one stored value at (p, q): the node function of row p of the loaded blocks. -/
theorem pay_at (x0 : Vec Ideal S5000x128 .f32) (x1 : Vec Ideal S5000x1 .f32) (x2 : Vec Ideal S5000x128 .f32)
    (x3 x4 : Vec Ideal S128x128 .f32) (x5 : Vec Ideal S1x128 .f32) (p : Fin 5000) (q : Fin 128) :
    k2_pay1 x0 x1 x2 x3 x4 x5 (ix2 p q)
      = Cert.Sage.node (fun k => x0 (ix2 p k)) (x1 (ix2 p (0 : Fin 1))) (fun k => x2 (ix2 p k)) x3 x4 (x5 (ix2 0 q)) q := by
  unfold k2_pay1
  simp only [shapeCast_self]
  exact (Cert.Sage.block_at dot_S5000x128_S128x128_S5000x128_1_0_0_1_n_n rfl rfl rfl rfl rfl rfl x0 x1 x2 x3 x4 x5
      broadcasts_S5000x1_S5000x128 broadcasts_S1x128_S5000x128 bitsLt_bf16_f32 p q)

/-- Over the grid: the row-blocked windows sit at block (t, 0), the whole-array windows at block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = t.val ∧ win2_6.index t (1 : Fin 2) = 0 :=
  (by decide +kernel : ∀ t : Fin grid2.N, _)

/-- The aggregated array's block at point t is its rows 5000·t …. -/
theorem read0 (c : Dev nD) (t : Fin cfg2.N) (x : S5000x128.Idx) (i : S50000x128.Idx)
    (h0 : (i 0).val = t.val * 5000 + (x 0).val) (h1 : (i 1).val = (x 1).val) :
    (iblk2 V c 0 t : Vec Ideal S5000x128 .f32) x = (V c main_v50 : S50000x128.Idx → EReal) i := by
  obtain ⟨e0, e1, -⟩ := idx_facts t
  unfold iblk2
  rw [View.read_apply]
  show V c main_v50 _ = V c main_v50 _
  refine congrArg _ (funext fun a => Fin.ext ?_)
  match a with
  | ⟨0, _⟩ => show win2_0.index t (0 : Fin 2) * 5000 + 1 * (x 0).val = (i 0).val; rw [e0, h0]; omega
  | ⟨1, _⟩ => show win2_0.index t (1 : Fin 2) * 128 + 1 * (x 1).val = (i 1).val; rw [e1, h1]; omega

/-- The degree column's block: the same rows. -/
theorem read1 (c : Dev nD) (t : Fin cfg2.N) (x : S5000x1.Idx) (i : S50000x1.Idx)
    (h0 : (i 0).val = t.val * 5000 + (x 0).val) (h1 : (i 1).val = (x 1).val) :
    (iblk2 V c 1 t : Vec Ideal S5000x1 .f32) x = (V c main_v10 : S50000x1.Idx → EReal) i := by
  obtain ⟨-, -, e0, e1, -⟩ := idx_facts t
  unfold iblk2
  rw [View.read_apply]
  show V c main_v10 _ = V c main_v10 _
  refine congrArg _ (funext fun a => Fin.ext ?_)
  match a with
  | ⟨0, _⟩ => show win2_1.index t (0 : Fin 2) * 5000 + 1 * (x 0).val = (i 0).val; rw [e0, h0]; omega
  | ⟨1, _⟩ => show win2_1.index t (1 : Fin 2) * 1 + 1 * (x 1).val = (i 1).val; rw [e1, h1]; omega

/-- The feature array's block: the same rows. -/
theorem read2 (c : Dev nD) (t : Fin cfg2.N) (x : S5000x128.Idx) (i : S50000x128.Idx)
    (h0 : (i 0).val = t.val * 5000 + (x 0).val) (h1 : (i 1).val = (x 1).val) :
    (iblk2 V c 2 t : Vec Ideal S5000x128 .f32) x = (V c main_v38 : S50000x128.Idx → EReal) i := by
  obtain ⟨-, -, -, -, e0, e1, -⟩ := idx_facts t
  unfold iblk2
  rw [View.read_apply]
  show V c main_v38 _ = V c main_v38 _
  refine congrArg _ (funext fun a => Fin.ext ?_)
  match a with
  | ⟨0, _⟩ => show win2_2.index t (0 : Fin 2) * 5000 + 1 * (x 0).val = (i 0).val; rw [e0, h0]; omega
  | ⟨1, _⟩ => show win2_2.index t (1 : Fin 2) * 128 + 1 * (x 1).val = (i 1).val; rw [e1, h1]; omega

/-- The first weight matrix's block is the matrix. -/
theorem read3 (c : Dev nD) (t : Fin cfg2.N) :
    (iblk2 V c 3 t : Vec Ideal S128x128 .f32) = (V c main_arg8 : S128x128.Idx → EReal) := by
  obtain ⟨-, -, -, -, -, -, e0, e1, -⟩ := idx_facts t
  funext x
  unfold iblk2
  rw [View.read_apply]
  show V c main_arg8 _ = V c main_arg8 _
  refine congrArg _ (funext fun a => Fin.ext ?_)
  match a with
  | ⟨0, _⟩ => show win2_3.index t (0 : Fin 2) * 128 + 1 * (x 0).val = (x 0).val; rw [e0]; omega
  | ⟨1, _⟩ => show win2_3.index t (1 : Fin 2) * 128 + 1 * (x 1).val = (x 1).val; rw [e1]; omega

/-- The second weight matrix's block is the matrix. -/
theorem read4 (c : Dev nD) (t : Fin cfg2.N) :
    (iblk2 V c 4 t : Vec Ideal S128x128 .f32) = (V c main_arg9 : S128x128.Idx → EReal) := by
  obtain ⟨-, -, -, -, -, -, -, -, e0, e1, -⟩ := idx_facts t
  funext x
  unfold iblk2
  rw [View.read_apply]
  show V c main_arg9 _ = V c main_arg9 _
  refine congrArg _ (funext fun a => Fin.ext ?_)
  match a with
  | ⟨0, _⟩ => show win2_4.index t (0 : Fin 2) * 128 + 1 * (x 0).val = (x 0).val; rw [e0]; omega
  | ⟨1, _⟩ => show win2_4.index t (1 : Fin 2) * 128 + 1 * (x 1).val = (x 1).val; rw [e1]; omega

/-- The bias row's block is the row. -/
theorem read5 (c : Dev nD) (t : Fin cfg2.N) :
    (iblk2 V c 5 t : Vec Ideal S1x128 .f32) = (V c main_v51 : S1x128.Idx → EReal) := by
  obtain ⟨-, -, -, -, -, -, -, -, -, -, e0, e1, -⟩ := idx_facts t
  funext x
  unfold iblk2
  rw [View.read_apply]
  show V c main_v51 _ = V c main_v51 _
  refine congrArg _ (funext fun a => Fin.ext ?_)
  match a with
  | ⟨0, _⟩ => show win2_5.index t (0 : Fin 2) * 1 + 1 * (x 0).val = (x 0).val; rw [e0]; omega
  | ⟨1, _⟩ => show win2_5.index t (1 : Fin 2) * 128 + 1 * (x 1).val = (x 1).val; rw [e1]; omega

/-- Where element (p, q) of the output block at point t sits in the output array: row 5000·t + p. -/
theorem emb6 (t : Fin cfg2.N) (p : Fin 5000) (q : Fin 128) (r : Fin 50000) (hr : r.val = t.val * 5000 + p.val) :
    ((cfg2.win 6).blk t).view.emb (ix2 p q) = (ix2 r q : S50000x128.Idx) := by
  obtain ⟨-, -, -, -, -, -, -, -, -, -, -, -, e0, e1⟩ := idx_facts t
  funext a
  apply Fin.ext
  match a with
  | ⟨0, _⟩ => show win2_6.index t (0 : Fin 2) * 5000 + 1 * p.val = r.val; rw [e0, hr]; omega
  | ⟨1, _⟩ => show win2_6.index t (1 : Fin 2) * 128 + 1 * q.val = q.val; rw [e1]; omega

/-- What the region leaves in its output array, as one function of the contents it is entered with. -/
def out (c : Dev nD) : Buf (Elt Ideal) ((c : Thread nD τ).loc main_v52) :=
  Cert.Sage.layer (M := 50000) (K := 128) (N := 128) (V c main_v50) (V c main_v10) (V c main_v38)
      (V c main_arg8) (V c main_arg9) (fun q => (V c main_v51 : S1x128.Idx → EReal) (ix2 0 q))

/-- WHAT POINT t WRITES BACK is block t of `out`. -/
theorem flushed_eq (c : Dev nD) (t : Fin cfg2.N) :
    (dat2 V c).flushed 6 t = ((cfg2.win 6).blk t).view.read (Elt Ideal) (out V c) := by
  show (cfg2.win 6).cut (grid2.coords t) ((dat2 V c).after 6 t) = _
  rw [after2_6]
  unfold out2_6
  rw [View.canon_unit_zero hz]
  simp only [View.ld_unit_zero (S := S5000x128) hz, View.ld_unit_zero (S := S5000x1) hz,
    View.ld_unit_zero (S := S128x128) hz, View.ld_unit_zero (S := S1x128) hz]
  funext j
  obtain ⟨p, q, rfl⟩ : ∃ (p : Fin 5000) (q : Fin 128), j = ix2 p q := ⟨j 0, j 1, eq_ix2 j⟩
  have ht : t.val < 10 := (N_2 ▸ t.isLt : t.val < 10)
  have hr : t.val * 5000 + p.val < 50000 := by have := p.isLt; omega
  refine (pay_at (iblk2 V c 0 t) (iblk2 V c 1 t) (iblk2 V c 2 t) (iblk2 V c 3 t) (iblk2 V c 4 t) (iblk2 V c 5 t) p q).trans ?_
  show _ = out V c (((cfg2.win 6).blk t).view.emb (ix2 p q))
  rw [emb6 t p q ⟨t.val * 5000 + p.val, hr⟩ rfl]
  have a0 : (fun k : Fin 128 => (iblk2 V c 0 t : Vec Ideal S5000x128 .f32) (ix2 p k))
      = fun k : Fin 128 => (V c main_v50 : S50000x128.Idx → EReal) (ix2 (⟨t.val * 5000 + p.val, hr⟩ : Fin 50000) k) :=
    funext fun k => read0 V c t (ix2 p k) (ix2 (⟨t.val * 5000 + p.val, hr⟩ : Fin 50000) k) rfl rfl
  have a1 : (iblk2 V c 1 t : Vec Ideal S5000x1 .f32) (ix2 p (0 : Fin 1))
      = (V c main_v10 : S50000x1.Idx → EReal) (ix2 (⟨t.val * 5000 + p.val, hr⟩ : Fin 50000) (0 : Fin 1)) :=
    read1 V c t (ix2 p (0 : Fin 1)) (ix2 (⟨t.val * 5000 + p.val, hr⟩ : Fin 50000) (0 : Fin 1)) rfl rfl
  have a2 : (fun k : Fin 128 => (iblk2 V c 2 t : Vec Ideal S5000x128 .f32) (ix2 p k))
      = fun k : Fin 128 => (V c main_v38 : S50000x128.Idx → EReal) (ix2 (⟨t.val * 5000 + p.val, hr⟩ : Fin 50000) k) :=
    funext fun k => read2 V c t (ix2 p k) (ix2 (⟨t.val * 5000 + p.val, hr⟩ : Fin 50000) k) rfl rfl
  have a3 := read3 V c t
  have a4 := read4 V c t
  have a5 : (iblk2 V c 5 t : Vec Ideal S1x128 .f32) (ix2 0 q) = (V c main_v51 : S1x128.Idx → EReal) (ix2 0 q) :=
    congrFun (read5 V c t) (ix2 0 q)
  exact Cert.Sage.node_congr q a0 a1 a2 a3 a4 a5

/-- An index of the output array is in point t's block iff each coordinate is in the block's range on its axis. -/
theorem mem_blk (t : Fin cfg2.N) (i : S50000x128.Idx) :
    i ∈ ((cfg2.win 6).blk t).view.set ↔ ∀ a : Fin 2, win2_6.index t a * S5000x128.size a ≤ (i a).val
      ∧ (i a).val < win2_6.index t a * S5000x128.size a + S5000x128.size a := by
  show i ∈ ((View.whole main_v52).slice (win2_6.rect t)).set ↔ _
  rw [View.set_slice_whole, Rect.mem_set_unit]
  exact Iff.rfl

/-- THE TEN BLOCKS TILE THE ARRAY: row r is in the block of point r / 5000. -/
theorem cover (i : S50000x128.Idx) :
    ∃ t : Fin cfg2.N, (cfg2.win 6).flush t = true ∧ i ∈ ((cfg2.win 6).blk t).view.set := by
  have hi0 : (i 0).val < 50000 := (i 0).isLt
  have hi1 : (i 1).val < 128 := (i 1).isLt
  have hN : cfg2.N = 10 := N_2
  have htl : (i 0).val / 5000 < cfg2.N := by rw [hN]; omega
  obtain ⟨-, -, -, -, -, -, -, -, -, -, -, -, e0, e1⟩ := idx_facts ⟨(i 0).val / 5000, htl⟩
  refine ⟨⟨(i 0).val / 5000, htl⟩, flush2_6 _, ?_⟩
  rw [mem_blk]
  intro a
  match a with
  | ⟨0, _⟩ =>
    show win2_6.index ⟨(i 0).val / 5000, htl⟩ (0 : Fin 2) * 5000 ≤ (i 0).val
      ∧ (i 0).val < win2_6.index ⟨(i 0).val / 5000, htl⟩ (0 : Fin 2) * 5000 + 5000
    rw [e0]
    show (i 0).val / 5000 * 5000 ≤ (i 0).val ∧ (i 0).val < (i 0).val / 5000 * 5000 + 5000
    omega
  | ⟨1, _⟩ =>
    show win2_6.index ⟨(i 0).val / 5000, htl⟩ (1 : Fin 2) * 128 ≤ (i 1).val
      ∧ (i 1).val < win2_6.index ⟨(i 0).val / 5000, htl⟩ (1 : Fin 2) * 128 + 128
    rw [e1]
    omega

/-- THE ARRAY AFTER THE REGION is `out` of the contents the region was entered with. -/
theorem final (c : Dev nD) : (dat2 V c).arrAt 6 cfg2.N = out V c :=
  (dat2 V c).arrAt_eq_of_cover 6 (out V c) (fun t _ => flushed_eq V c t) (cover)

end Cert.KernelIdeal.Layer2

end
-- ==== Proof.RefValue.lean ====
/-
  The reference network, stage by stage, as three graph-convolution layers.

  The reference computes, three times over, the neighbour sums (a gather along the wrapped source endpoints followed by a
  scatter-add at the destination endpoints), the clamped degree column, the quotient, two products and the bias, with a
  cap from below at zero after the first two layers. The gather, the scatter-add and the degree are never opened here:
  they stay the reference's own stage functions of a feature array and the edge list (`val_main_v13`, `val_main_v20`), and
  the second and third layers' copies of them are the same functions of the previous layer's output (by unfolding the
  stages' names only). What is read at an index is the dense half of each layer, which is `Cert.Sage.layer`.
-/
import proofs.«148115_j86947317940720_2_alg».proof.Proof.Gen.ReferenceIdeal.Read
import proofs.«148115_j86947317940720_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- A feature array, the edge list, a weight matrix, a bias vector: the contents of the reference's argument buffers. -/
abbrev Feat : Type := (⟨S50000x128, .f32⟩ : BufTy).Contents (Elt Ideal)
abbrev Edges : Type := (⟨S2x800000, .i32⟩ : BufTy).Contents (Elt Ideal)
abbrev Mat : Type := (⟨S128x128, .f32⟩ : BufTy).Contents (Elt Ideal)
abbrev Bias : Type := (⟨S128, .f32⟩ : BufTy).Contents (Elt Ideal)

/-- The neighbour sums of a feature array along the edge list: the reference's first-layer stage, as a function of ANY
    feature array. -/
abbrev aggOf (h : Feat) (e : Edges) : Feat := val_main_v13 (F := Ideal) h e
/-- The clamped degree column of the edge list. -/
abbrev degOf (e : Edges) : (⟨S50000x1, .f32⟩ : BufTy).Contents (Elt Ideal) := val_main_v20 (F := Ideal) e

/-- One layer of the network on a feature array: aggregate, then the dense half. -/
def conv (h : Feat) (e : Edges) (wl wr : Mat) (b : Bias) : Feat :=
  Cert.Sage.layer (M := 50000) (K := 128) (N := 128) (aggOf h e) (degOf e) h wl wr (fun q => b (ix1 q))

/-- The whole network: two capped layers and a plain one. -/
def net (x0 : Feat) (e : Edges) (x2 x3 : Mat) (x4 : Bias) (x5 x6 : Mat) (x7 : Bias) (x8 x9 : Mat) (x10 : Bias) : Feat :=
  conv (Cert.Sage.relu0 (conv (Cert.Sage.relu0 (conv x0 e x2 x3 x4)) e x5 x6 x7)) e x8 x9 x10

/-- The second layer's neighbour sums are the first layer's function of the first layer's output. -/
theorem agg1_eq (x0 : Feat) (x1 : Edges) (x2 x3 : Mat) (x4 : Bias) :
    val_main_v39 (F := Ideal) x0 x1 x2 x3 x4 = aggOf (val_main_v29 (F := Ideal) x0 x1 x2 x3 x4) x1 := rfl
theorem deg1_eq (x1 : Edges) : val_main_v46 (F := Ideal) x1 = degOf x1 := rfl
/-- The third layer's, of the second layer's output. -/
theorem agg2_eq (x0 : Feat) (x1 : Edges) (x2 x3 : Mat) (x4 : Bias) (x5 x6 : Mat) (x7 : Bias) :
    val_main_v65 (F := Ideal) x0 x1 x2 x3 x4 x5 x6 x7 = aggOf (val_main_v55 (F := Ideal) x0 x1 x2 x3 x4 x5 x6 x7) x1 := rfl
theorem deg2_eq (x1 : Edges) : val_main_v72 (F := Ideal) x1 = degOf x1 := rfl

/-- The first layer's output. -/
theorem layer0 (x0 : Feat) (x1 : Edges) (x2 x3 : Mat) (x4 : Bias) :
    val_main_v29 (F := Ideal) x0 x1 x2 x3 x4 = Cert.Sage.relu0 (conv x0 x1 x2 x3 x4) := by
  funext i
  obtain ⟨p, q, rfl⟩ : ∃ (p : Fin 50000) (q : Fin 128), i = ix2 p q := ⟨i 0, i 1, eq_ix2 i⟩
  unfold val_main_v29 val_main_v28 val_main_v27 val_main_v26 val_main_v25 val_main_v24 val_main_v23 val_main_v22 val_main_v21
    val_main_call0_v0 val_main_call0_cst
  rw [maximumf_apply, Cert.Sage.host_at dot_S50000x128_S128x128_S50000x128_1_0_0_1_n_n rfl rfl rfl rfl rfl rfl
      (val_main_v13 (F := Ideal) x0 x1) (val_main_v20 (F := Ideal) x1) x0 x2 x3 x4
      bcast_S50000x1_S50000x128_0_1 bcast_S128_S1x128_1 bcast_S1x128_S50000x128_0_1 p q,
    Cert.Lib.Rows.scalar_apply]
  rfl

/-- The second layer's output. -/
theorem layer1 (x0 : Feat) (x1 : Edges) (x2 x3 : Mat) (x4 : Bias) (x5 x6 : Mat) (x7 : Bias) :
    val_main_v55 (F := Ideal) x0 x1 x2 x3 x4 x5 x6 x7
      = Cert.Sage.relu0 (conv (val_main_v29 (F := Ideal) x0 x1 x2 x3 x4) x1 x5 x6 x7) := by
  funext i
  obtain ⟨p, q, rfl⟩ : ∃ (p : Fin 50000) (q : Fin 128), i = ix2 p q := ⟨i 0, i 1, eq_ix2 i⟩
  unfold val_main_v55 val_main_v54 val_main_v53 val_main_v52 val_main_v51 val_main_v50 val_main_v49 val_main_v48 val_main_v47
    val_main_call1_v0 val_main_call1_cst
  rw [agg1_eq, deg1_eq]
  rw [maximumf_apply, Cert.Sage.host_at dot_S50000x128_S128x128_S50000x128_1_0_0_1_n_n rfl rfl rfl rfl rfl rfl
      (aggOf (val_main_v29 (F := Ideal) x0 x1 x2 x3 x4) x1) (degOf x1) (val_main_v29 (F := Ideal) x0 x1 x2 x3 x4) x5 x6 x7
      bcast_S50000x1_S50000x128_0_1 bcast_S128_S1x128_1 bcast_S1x128_S50000x128_0_1 p q,
    Cert.Lib.Rows.scalar_apply]
  rfl

/-- The third layer's output: no cap. -/
theorem layer2 (x0 : Feat) (x1 : Edges) (x2 x3 : Mat) (x4 : Bias) (x5 x6 : Mat) (x7 : Bias) (x8 x9 : Mat) (x10 : Bias) :
    val_main_v80 (F := Ideal) x0 x1 x2 x3 x4 x5 x6 x7 x8 x9 x10
      = conv (val_main_v55 (F := Ideal) x0 x1 x2 x3 x4 x5 x6 x7) x1 x8 x9 x10 := by
  funext i
  obtain ⟨p, q, rfl⟩ : ∃ (p : Fin 50000) (q : Fin 128), i = ix2 p q := ⟨i 0, i 1, eq_ix2 i⟩
  unfold val_main_v80 val_main_v79 val_main_v78 val_main_v77 val_main_v76 val_main_v75 val_main_v74 val_main_v73
  rw [agg2_eq, deg2_eq]
  exact Cert.Sage.host_at dot_S50000x128_S128x128_S50000x128_1_0_0_1_n_n rfl rfl rfl rfl rfl rfl
      (aggOf (val_main_v55 (F := Ideal) x0 x1 x2 x3 x4 x5 x6 x7) x1) (degOf x1) (val_main_v55 (F := Ideal) x0 x1 x2 x3 x4 x5 x6 x7) x8 x9 x10
      bcast_S50000x1_S50000x128_0_1 bcast_S128_S1x128_1 bcast_S1x128_S50000x128_0_1 p q

/-- THE REFERENCE IS THE NETWORK. -/
theorem ref_eq (x0 : Feat) (x1 : Edges) (x2 x3 : Mat) (x4 : Bias) (x5 x6 : Mat) (x7 : Bias) (x8 x9 : Mat) (x10 : Bias) :
    val_main_v80 (F := Ideal) x0 x1 x2 x3 x4 x5 x6 x7 x8 x9 x10 = net x0 x1 x2 x3 x4 x5 x6 x7 x8 x9 x10 := by
  rw [layer2, layer1, layer0]
  rfl

end Cert.ReferenceIdeal.RefValue

end
-- ==== Proof.Chain.lean ====
/-
  The kernel program's result, read back through its segment boundaries to the launch memory.

  The program alternates stretches of host operations with the three layer kernels. Each stretch prepares a layer's operands:
  the neighbour sums of the current feature array (the array narrowed to bf16, gathered along the wrapped source endpoints,
  widened again and scatter-added at the destination endpoints — on extended reals the narrowing and the widening are the
  identity, so these are the reference's own neighbour sums `aggOf`, by unfolding names only), the bias re-laid as one row,
  and, in the first stretch, the endpoint lists and the clamped degree column `degOf`, which later stretches and regions
  leave alone. Each region leaves `Cert.Sage.layer` of its operands in its output array (Layer0 / Layer1 / Layer2) and every
  other buffer as it found it. Followed boundary by boundary, the result buffer ends holding the reference's `net` of the
  launch contents of the eleven arguments.
-/
import proofs.«148115_j86947317940720_2_alg».proof.Proof.PatchedKernelIdealFrame
import proofs.«148115_j86947317940720_2_alg».proof.Proof.Layer0
import proofs.«148115_j86947317940720_2_alg».proof.Proof.Layer1
import proofs.«148115_j86947317940720_2_alg».proof.Proof.Layer2
import proofs.«148115_j86947317940720_2_alg».proof.Proof.RefValue
import Idealize.ShloMosaic.Lib.StableHlo.Run

noncomputable section

namespace Cert.KernelIdeal.Chain

open Cert.KernelIdeal Cert.KernelIdeal.Gen Cert.KernelIdeal.GenP
open Idealize.ShloMosaic Idealize.ShloMosaic.TcCoe Idealize.ShloMosaic.ValueIdx Idealize.ShloMosaic.StableHlo Idealize.SL.Sem
open Idealize.ShloMosaic.Pipeline (Dat)
open Cert.ReferenceIdeal.RefValue (Feat Edges Mat Bias aggOf degOf conv net)

/-! ## The stretches of host operations, from ANY buffer contents `W` -/

section Stretches

variable (W : Valuation τ sig (Elt Ideal))

set_option maxHeartbeats 1000000 in
/-- The first stretch's neighbour sums of the feature argument. -/
theorem stretch0_agg : StableHlo.after hostOps0 W (Proc.devRef .tc main_v22) = aggOf (W (Proc.devRef .tc main_arg0)) (W (Proc.devRef .tc main_arg1)) := by
  dsimp only [hostOps0]; after_results_simp <;> rfl
/-- Its clamped degree column. -/
theorem stretch0_deg : StableHlo.after hostOps0 W (Proc.devRef .tc main_v10) = degOf (W (Proc.devRef .tc main_arg1)) := by
  dsimp only [hostOps0]; after_results; rfl
/-- Its source and destination endpoint lists. -/
theorem stretch0_src : StableHlo.after hostOps0 W (Proc.devRef .tc main_v1)
    = Cert.ReferenceIdeal.Read.val_main_v1 (F := Ideal) (W (Proc.devRef .tc main_arg1)) := by
  dsimp only [hostOps0]; after_results; rfl
theorem stretch0_dst : StableHlo.after hostOps0 W (Proc.devRef .tc main_v3)
    = Cert.ReferenceIdeal.Read.val_main_v3 (F := Ideal) (W (Proc.devRef .tc main_arg1)) := by
  dsimp only [hostOps0]; after_results; rfl
/-- Its bias row reads the bias vector. -/
theorem stretch0_bias (q : Fin 128) : (StableHlo.after hostOps0 W (Proc.devRef .tc main_v23) : S1x128.Idx → EReal) (ix2 0 q)
    = (W (Proc.devRef .tc main_arg4) : S128.Idx → EReal) (ix1 q) := by
  have e : StableHlo.after hostOps0 W (Proc.devRef .tc main_v23)
      = shapeCast S1x128 (W (Proc.devRef .tc main_arg4) : S128.Idx → EReal) shapeCasts_S128_S1x128 := by
    dsimp only [hostOps0]; after_results; rfl
  rw [e]; exact Cert.Lib.Rows.shapeCast_row_apply _ _ q
/-- It writes none of these. -/
theorem keep0_arg0 : StableHlo.after hostOps0 W (Proc.devRef .tc main_arg0) = W (Proc.devRef .tc main_arg0) := by
  dsimp only [hostOps0]; after_results
theorem keep0_arg2 : StableHlo.after hostOps0 W (Proc.devRef .tc main_arg2) = W (Proc.devRef .tc main_arg2) := by
  dsimp only [hostOps0]; after_results
theorem keep0_arg3 : StableHlo.after hostOps0 W (Proc.devRef .tc main_arg3) = W (Proc.devRef .tc main_arg3) := by
  dsimp only [hostOps0]; after_results
theorem keep0_arg5 : StableHlo.after hostOps0 W (Proc.devRef .tc main_arg5) = W (Proc.devRef .tc main_arg5) := by
  dsimp only [hostOps0]; after_results
theorem keep0_arg6 : StableHlo.after hostOps0 W (Proc.devRef .tc main_arg6) = W (Proc.devRef .tc main_arg6) := by
  dsimp only [hostOps0]; after_results
theorem keep0_arg7 : StableHlo.after hostOps0 W (Proc.devRef .tc main_arg7) = W (Proc.devRef .tc main_arg7) := by
  dsimp only [hostOps0]; after_results
theorem keep0_arg8 : StableHlo.after hostOps0 W (Proc.devRef .tc main_arg8) = W (Proc.devRef .tc main_arg8) := by
  dsimp only [hostOps0]; after_results
theorem keep0_arg9 : StableHlo.after hostOps0 W (Proc.devRef .tc main_arg9) = W (Proc.devRef .tc main_arg9) := by
  dsimp only [hostOps0]; after_results
theorem keep0_arg10 : StableHlo.after hostOps0 W (Proc.devRef .tc main_arg10) = W (Proc.devRef .tc main_arg10) := by
  dsimp only [hostOps0]; after_results

set_option maxHeartbeats 1000000 in
/-- The second stretch's neighbour sums of the first layer's output, from the endpoint lists the first stretch left. -/
theorem stretch1_agg (e : Edges)
    (hs : W (Proc.devRef .tc main_v1) = Cert.ReferenceIdeal.Read.val_main_v1 (F := Ideal) e)
    (hd : W (Proc.devRef .tc main_v3) = Cert.ReferenceIdeal.Read.val_main_v3 (F := Ideal) e) :
    StableHlo.after hostOps1 W (Proc.devRef .tc main_v36) = aggOf (W (Proc.devRef .tc main_v24)) e := by
  dsimp only [hostOps1]; after_results_simp; rw [hs, hd] <;> rfl
theorem stretch1_bias (q : Fin 128) : (StableHlo.after hostOps1 W (Proc.devRef .tc main_v37) : S1x128.Idx → EReal) (ix2 0 q)
    = (W (Proc.devRef .tc main_arg7) : S128.Idx → EReal) (ix1 q) := by
  have e : StableHlo.after hostOps1 W (Proc.devRef .tc main_v37)
      = shapeCast S1x128 (W (Proc.devRef .tc main_arg7) : S128.Idx → EReal) shapeCasts_S128_S1x128 := by
    dsimp only [hostOps1]; after_results; rfl
  rw [e]; exact Cert.Lib.Rows.shapeCast_row_apply _ _ q
theorem keep1_v1 : StableHlo.after hostOps1 W (Proc.devRef .tc main_v1) = W (Proc.devRef .tc main_v1) := by
  dsimp only [hostOps1]; after_results
theorem keep1_v3 : StableHlo.after hostOps1 W (Proc.devRef .tc main_v3) = W (Proc.devRef .tc main_v3) := by
  dsimp only [hostOps1]; after_results
theorem keep1_v10 : StableHlo.after hostOps1 W (Proc.devRef .tc main_v10) = W (Proc.devRef .tc main_v10) := by
  dsimp only [hostOps1]; after_results
theorem keep1_v24 : StableHlo.after hostOps1 W (Proc.devRef .tc main_v24) = W (Proc.devRef .tc main_v24) := by
  dsimp only [hostOps1]; after_results
theorem keep1_arg5 : StableHlo.after hostOps1 W (Proc.devRef .tc main_arg5) = W (Proc.devRef .tc main_arg5) := by
  dsimp only [hostOps1]; after_results
theorem keep1_arg6 : StableHlo.after hostOps1 W (Proc.devRef .tc main_arg6) = W (Proc.devRef .tc main_arg6) := by
  dsimp only [hostOps1]; after_results
theorem keep1_arg8 : StableHlo.after hostOps1 W (Proc.devRef .tc main_arg8) = W (Proc.devRef .tc main_arg8) := by
  dsimp only [hostOps1]; after_results
theorem keep1_arg9 : StableHlo.after hostOps1 W (Proc.devRef .tc main_arg9) = W (Proc.devRef .tc main_arg9) := by
  dsimp only [hostOps1]; after_results
theorem keep1_arg10 : StableHlo.after hostOps1 W (Proc.devRef .tc main_arg10) = W (Proc.devRef .tc main_arg10) := by
  dsimp only [hostOps1]; after_results

set_option maxHeartbeats 1000000 in
/-- The third stretch's, of the second layer's output. -/
theorem stretch2_agg (e : Edges)
    (hs : W (Proc.devRef .tc main_v1) = Cert.ReferenceIdeal.Read.val_main_v1 (F := Ideal) e)
    (hd : W (Proc.devRef .tc main_v3) = Cert.ReferenceIdeal.Read.val_main_v3 (F := Ideal) e) :
    StableHlo.after hostOps2 W (Proc.devRef .tc main_v50) = aggOf (W (Proc.devRef .tc main_v38)) e := by
  dsimp only [hostOps2]; after_results_simp; rw [hs, hd] <;> rfl
theorem stretch2_bias (q : Fin 128) : (StableHlo.after hostOps2 W (Proc.devRef .tc main_v51) : S1x128.Idx → EReal) (ix2 0 q)
    = (W (Proc.devRef .tc main_arg10) : S128.Idx → EReal) (ix1 q) := by
  have e : StableHlo.after hostOps2 W (Proc.devRef .tc main_v51)
      = shapeCast S1x128 (W (Proc.devRef .tc main_arg10) : S128.Idx → EReal) shapeCasts_S128_S1x128 := by
    dsimp only [hostOps2]; after_results; rfl
  rw [e]; exact Cert.Lib.Rows.shapeCast_row_apply _ _ q
theorem keep2_v10 : StableHlo.after hostOps2 W (Proc.devRef .tc main_v10) = W (Proc.devRef .tc main_v10) := by
  dsimp only [hostOps2]; after_results
theorem keep2_v38 : StableHlo.after hostOps2 W (Proc.devRef .tc main_v38) = W (Proc.devRef .tc main_v38) := by
  dsimp only [hostOps2]; after_results
theorem keep2_arg8 : StableHlo.after hostOps2 W (Proc.devRef .tc main_arg8) = W (Proc.devRef .tc main_arg8) := by
  dsimp only [hostOps2]; after_results
theorem keep2_arg9 : StableHlo.after hostOps2 W (Proc.devRef .tc main_arg9) = W (Proc.devRef .tc main_arg9) := by
  dsimp only [hostOps2]; after_results

end Stretches

/-! ## The fold, boundary by boundary -/

variable (m : (ℓ : Loc nD τ sig) → Buf (Elt Ideal) ℓ) (ρ : Dev nD → PrngReg) (c : Dev nD)

/-- The launch contents of the arguments. -/
abbrev x0 : Feat := m ((c : Thread nD τ).loc main_arg0)
abbrev ed : Edges := m ((c : Thread nD τ).loc main_arg1)
abbrev x2 : Mat := m ((c : Thread nD τ).loc main_arg2)
abbrev x3 : Mat := m ((c : Thread nD τ).loc main_arg3)
abbrev x4 : Bias := m ((c : Thread nD τ).loc main_arg4)
abbrev x5 : Mat := m ((c : Thread nD τ).loc main_arg5)
abbrev x6 : Mat := m ((c : Thread nD τ).loc main_arg6)
abbrev x7 : Bias := m ((c : Thread nD τ).loc main_arg7)
abbrev x8 : Mat := m ((c : Thread nD τ).loc main_arg8)
abbrev x9 : Mat := m ((c : Thread nD τ).loc main_arg9)
abbrev x10 : Bias := m ((c : Thread nD τ).loc main_arg10)

/-- The feature array after the first layer, and after the second. -/
def h1 : Feat := Cert.Sage.relu0 (conv (x0 m c) (ed m c) (x2 m c) (x3 m c) (x4 m c))
def h2 : Feat := Cert.Sage.relu0 (conv (h1 m c) (ed m c) (x5 m c) (x6 m c) (x7 m c))

/-- The endpoint lists, at the first region's exit (the region does not touch them). -/
theorem src2 : W2 m ρ c (Proc.devRef .tc main_v1) = Cert.ReferenceIdeal.Read.val_main_v1 (F := Ideal) (ed m c) :=
  (W2_of_ne m ρ c main_v1 (by decide)).trans (stretch0_src (W0 m ρ c))
theorem dst2 : W2 m ρ c (Proc.devRef .tc main_v3) = Cert.ReferenceIdeal.Read.val_main_v3 (F := Ideal) (ed m c) :=
  (W2_of_ne m ρ c main_v3 (by decide)).trans (stretch0_dst (W0 m ρ c))
/-- The degree column, at the first region's exit (an input window: unchanged). -/
theorem deg2 : W2 m ρ c (Proc.devRef .tc main_v10) = degOf (ed m c) :=
  ((W2_arr m ρ c 1).trans (((dat0 (V1 m ρ) c).arrAt_in 1 rfl _).trans (A_eq0 (V1 m ρ) c 1))).trans (stretch0_deg (W0 m ρ c))

/-- THE FIRST LAYER: what region 0 leaves is the first layer of the launch contents. -/
theorem out0_eq : Layer0.out (V1 m ρ) c = h1 m c := by
  unfold Layer0.out h1 conv
  have eb : (fun q : Fin 128 => (V1 m ρ c main_v23 : S1x128.Idx → EReal) (ix2 0 q)) = fun q : Fin 128 => x4 m c (ix1 q) :=
    funext fun q => stretch0_bias (W0 m ρ c) q
  rw [eb, show V1 m ρ c main_v22 = aggOf (x0 m c) (ed m c) from stretch0_agg (W0 m ρ c),
    show V1 m ρ c main_v10 = degOf (ed m c) from stretch0_deg (W0 m ρ c),
    show V1 m ρ c main_arg0 = x0 m c from keep0_arg0 (W0 m ρ c),
    show V1 m ρ c main_arg2 = x2 m c from keep0_arg2 (W0 m ρ c),
    show V1 m ρ c main_arg3 = x3 m c from keep0_arg3 (W0 m ρ c)]
theorem feat2 : W2 m ρ c (Proc.devRef .tc main_v24) = h1 m c :=
  ((W2_arr m ρ c 6).trans (Layer0.final (V1 m ρ) c)).trans (out0_eq m ρ c)

/-- The later layers' weights and biases at the first region's exit: as launched. -/
theorem w2_arg5 : W2 m ρ c (Proc.devRef .tc main_arg5) = x5 m c := (W2_of_ne m ρ c main_arg5 (by decide)).trans (keep0_arg5 (W0 m ρ c))
theorem w2_arg6 : W2 m ρ c (Proc.devRef .tc main_arg6) = x6 m c := (W2_of_ne m ρ c main_arg6 (by decide)).trans (keep0_arg6 (W0 m ρ c))
theorem w2_arg7 : W2 m ρ c (Proc.devRef .tc main_arg7) = x7 m c := (W2_of_ne m ρ c main_arg7 (by decide)).trans (keep0_arg7 (W0 m ρ c))
theorem w2_arg8 : W2 m ρ c (Proc.devRef .tc main_arg8) = x8 m c := (W2_of_ne m ρ c main_arg8 (by decide)).trans (keep0_arg8 (W0 m ρ c))
theorem w2_arg9 : W2 m ρ c (Proc.devRef .tc main_arg9) = x9 m c := (W2_of_ne m ρ c main_arg9 (by decide)).trans (keep0_arg9 (W0 m ρ c))
theorem w2_arg10 : W2 m ρ c (Proc.devRef .tc main_arg10) = x10 m c := (W2_of_ne m ρ c main_arg10 (by decide)).trans (keep0_arg10 (W0 m ρ c))

/-- THE SECOND LAYER. -/
theorem out1_eq : Layer1.out (V3 m ρ) c = h2 m c := by
  unfold Layer1.out h2 conv
  have eb : (fun q : Fin 128 => (V3 m ρ c main_v37 : S1x128.Idx → EReal) (ix2 0 q)) = fun q : Fin 128 => x7 m c (ix1 q) :=
    funext fun q => (stretch1_bias (W2 m ρ c) q).trans (congrFun (w2_arg7 m ρ c) (ix1 q))
  rw [eb, show V3 m ρ c main_v36 = aggOf (h1 m c) (ed m c) from
      (stretch1_agg (W2 m ρ c) (ed m c) (src2 m ρ c) (dst2 m ρ c)).trans (congrArg (aggOf · (ed m c)) (feat2 m ρ c)),
    show V3 m ρ c main_v10 = degOf (ed m c) from (keep1_v10 (W2 m ρ c)).trans (deg2 m ρ c),
    show V3 m ρ c main_v24 = h1 m c from (keep1_v24 (W2 m ρ c)).trans (feat2 m ρ c),
    show V3 m ρ c main_arg5 = x5 m c from (keep1_arg5 (W2 m ρ c)).trans (w2_arg5 m ρ c),
    show V3 m ρ c main_arg6 = x6 m c from (keep1_arg6 (W2 m ρ c)).trans (w2_arg6 m ρ c)]
theorem feat4 : W4 m ρ c (Proc.devRef .tc main_v38) = h2 m c :=
  ((W4_arr m ρ c 6).trans (Layer1.final (V3 m ρ) c)).trans (out1_eq m ρ c)

/-- What the third stretch reads, at the second region's exit. -/
theorem src4 : W4 m ρ c (Proc.devRef .tc main_v1) = Cert.ReferenceIdeal.Read.val_main_v1 (F := Ideal) (ed m c) :=
  ((W4_of_ne m ρ c main_v1 (by decide)).trans (keep1_v1 (W2 m ρ c))).trans (src2 m ρ c)
theorem dst4 : W4 m ρ c (Proc.devRef .tc main_v3) = Cert.ReferenceIdeal.Read.val_main_v3 (F := Ideal) (ed m c) :=
  ((W4_of_ne m ρ c main_v3 (by decide)).trans (keep1_v3 (W2 m ρ c))).trans (dst2 m ρ c)
theorem deg4 : W4 m ρ c (Proc.devRef .tc main_v10) = degOf (ed m c) :=
  ((W4_arr m ρ c 1).trans (((dat1 (V3 m ρ) c).arrAt_in 1 rfl _).trans (A_eq1 (V3 m ρ) c 1))).trans
    ((keep1_v10 (W2 m ρ c)).trans (deg2 m ρ c))
theorem w4_arg8 : W4 m ρ c (Proc.devRef .tc main_arg8) = x8 m c :=
  ((W4_of_ne m ρ c main_arg8 (by decide)).trans (keep1_arg8 (W2 m ρ c))).trans (w2_arg8 m ρ c)
theorem w4_arg9 : W4 m ρ c (Proc.devRef .tc main_arg9) = x9 m c :=
  ((W4_of_ne m ρ c main_arg9 (by decide)).trans (keep1_arg9 (W2 m ρ c))).trans (w2_arg9 m ρ c)
theorem w4_arg10 : W4 m ρ c (Proc.devRef .tc main_arg10) = x10 m c :=
  ((W4_of_ne m ρ c main_arg10 (by decide)).trans (keep1_arg10 (W2 m ρ c))).trans (w2_arg10 m ρ c)

/-- THE THIRD LAYER: no cap. -/
theorem out2_eq : Layer2.out (V5 m ρ) c = conv (h2 m c) (ed m c) (x8 m c) (x9 m c) (x10 m c) := by
  unfold Layer2.out conv
  have eb : (fun q : Fin 128 => (V5 m ρ c main_v51 : S1x128.Idx → EReal) (ix2 0 q)) = fun q : Fin 128 => x10 m c (ix1 q) :=
    funext fun q => (stretch2_bias (W4 m ρ c) q).trans (congrFun (w4_arg10 m ρ c) (ix1 q))
  rw [eb, show V5 m ρ c main_v50 = aggOf (h2 m c) (ed m c) from
      (stretch2_agg (W4 m ρ c) (ed m c) (src4 m ρ c) (dst4 m ρ c)).trans (congrArg (aggOf · (ed m c)) (feat4 m ρ c)),
    show V5 m ρ c main_v10 = degOf (ed m c) from (keep2_v10 (W4 m ρ c)).trans (deg4 m ρ c),
    show V5 m ρ c main_v38 = h2 m c from (keep2_v38 (W4 m ρ c)).trans (feat4 m ρ c),
    show V5 m ρ c main_arg8 = x8 m c from (keep2_arg8 (W4 m ρ c)).trans (w4_arg8 m ρ c),
    show V5 m ρ c main_arg9 = x9 m c from (keep2_arg9 (W4 m ρ c)).trans (w4_arg9 m ρ c)]

/-- THE RESULT BUFFER after the last region: the reference's network of the launch contents. -/
theorem result : W6 m ρ c (Proc.devRef .tc main_v52)
    = net (x0 m c) (ed m c) (x2 m c) (x3 m c) (x4 m c) (x5 m c) (x6 m c) (x7 m c) (x8 m c) (x9 m c) (x10 m c) :=
  ((W6_arr m ρ c 6).trans (Layer2.final (V5 m ρ) c)).trans (out2_eq m ρ c)

end Cert.KernelIdeal.Chain

end
-- ==== Proof.lean ====
/-
  A three-layer graph-convolution network with mean aggregation: a kernel program against its reference, on the extended
  reals.

  Each layer sends the feature array h to  layer(agg(h), deg, h) = (agg(h) / deg) · W_l + h · W_r + b,  where agg(h) is the
  sum over the edges of the source node's row into the destination node's row, and deg the clamped in-degree column; the first
  two layers are capped from below at zero. The kernel program computes agg and deg by host operations (the gather on a bf16
  copy, widened back: the identity on extended reals) and the dense half of each layer by a kernel over ten blocks of 5000
  rows, both products with bf16 operands into a zero accumulator; the reference computes everything by whole-array host
  operations. On extended reals the two are the same function of the arguments, entry by entry the same sums in the same
  order: no algebraic law is used, and the precondition is never opened.

  The reference's result is `RefValue.net` of its arguments (RefValue.lean, over the generated run and its stages); the
  kernel program's result buffer ends at the same `net` of its arguments (RunValue.lean: the run with the result in its
  post; Chain.lean: the buffer contents followed through the three stretches of host operations and the three regions;
  Layer0/1/2.lean: what each region leaves; Spec.lean: the layer and its two spellings at an index). The ideal pass
  rewrote nothing, so `preserves` is trivial; the two kernel programs' frames are the generated ones, the reference's is
  its generated run with the result dropped.
-/
import proofs.«148115_j86947317940720_2_alg».proof.Defs
import proofs.«148115_j86947317940720_2_alg».proof.Proof.Gen.Kernel
import proofs.«148115_j86947317940720_2_alg».proof.Proof.Gen.KernelIdeal
import proofs.«148115_j86947317940720_2_alg».proof.Proof.Gen.ReferenceIdeal
import proofs.«148115_j86947317940720_2_alg».proof.Proof.Gen.Pre_finite_inputs
import proofs.«148115_j86947317940720_2_alg».proof.Proof.Gen.ReferenceIdeal.Run
import proofs.«148115_j86947317940720_2_alg».proof.Proof.Gen.ReferenceIdeal.Read
import proofs.«148115_j86947317940720_2_alg».proof.Proof.PatchedKernelFrame
import proofs.«148115_j86947317940720_2_alg».proof.Proof.PatchedKernelIdealFrame
import proofs.«148115_j86947317940720_2_alg».proof.Proof.RunValue
import proofs.«148115_j86947317940720_2_alg».proof.Proof.Chain
import proofs.«148115_j86947317940720_2_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.GenP.frame m ρ
theorem frame_ki : Cert.frame_KernelIdeal := fun m ρ _ => Cert.KernelIdeal.GenP.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the network of the (agreeing) arguments in their result buffers. -/
theorem algebraic : Cert.algebraic_KernelIdeal_ReferenceIdeal := by
  intro m ρ m' ρ' _ hagree
  refine ⟨fun c => Cert.ReferenceIdeal.RefValue.net (Cert.KernelIdeal.Chain.x0 m c) (Cert.KernelIdeal.Chain.ed m c)
      (Cert.KernelIdeal.Chain.x2 m c) (Cert.KernelIdeal.Chain.x3 m c) (Cert.KernelIdeal.Chain.x4 m c)
      (Cert.KernelIdeal.Chain.x5 m c) (Cert.KernelIdeal.Chain.x6 m c) (Cert.KernelIdeal.Chain.x7 m c)
      (Cert.KernelIdeal.Chain.x8 m c) (Cert.KernelIdeal.Chain.x9 m c) (Cert.KernelIdeal.Chain.x10 m c), ?_, ?_⟩
  · exact (θ_run Cert.KernelIdeal.defs _ _).mono
      (fun _ h c => ⟨(h c).1.trans (Cert.KernelIdeal.Chain.result m ρ c), (h c).2⟩)
      (Cert.KernelIdeal.RunValue.run (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10⟩ := hagree c
    rw [Cert.ReferenceIdeal.Read.val_main_v80_eq, Cert.ReferenceIdeal.RefValue.ref_eq, e0, e1, e2, e3, e4, e5, e6, e7, e8, e9, e10]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
